-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S262144x16 : Shape := ⟨2, ![262144, 16]⟩
abbrev S4194304 : Shape := ⟨1, ![4194304]⟩
abbrev S20x64 : Shape := ⟨2, ![20, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S40x64 : Shape := ⟨2, ![40, 64]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S262144x16 : S_.BroadcastsInDim S262144x16 (![] : Fin 0 → Fin S262144x16.rank)
  reducesTo_S262144x16_S_d0_1 : S262144x16.ReducesTo [0, 1] S_
  bcast_S_S20x64 : S_.BroadcastsInDim S20x64 (![] : Fin 0 → Fin S20x64.rank)
  reducesTo_S20x64_S_d0_1 : S20x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x20 : S_.BroadcastsInDim S32x20 (![] : Fin 0 → Fin S32x20.rank)
  reducesTo_S32x20_S_d0_1 : S32x20.ReducesTo [0, 1] S_
  bcast_S_S20 : S_.BroadcastsInDim S20 (![] : Fin 0 → Fin S20.rank)
  reducesTo_S20_S_d0 : S20.ReducesTo [0] S_
  bcast_S_S40x64 : S_.BroadcastsInDim S40x64 (![] : Fin 0 → Fin S40x64.rank)
  reducesTo_S40x64_S_d0_1 : S40x64.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S32 .f32) (main_arg14 : FVec F S32x20 .f32) (main_arg15 : FVec F S20 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg13
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x20 .f32 := Host.absf main_arg14
  let main_cst_22 : FVec F S_ .f32 := constant S_ .f32 0x7F800000#32
  let main_v60 : FVec F S32x20 .f32 := broadcastInDim S32x20 ![] bcast_S_S32x20 main_cst_22
  let main_v61 : IVec S32x20 1 := cmpf .olt main_v59 main_v60
  let main_c_23 : IVec S_ 1 := constantI S_ 1 1#1
  let main_v62 : IVec S_ 1 := (fun x v => Host.reduce IntOp.andi x v reducesTo_S32x20_S_d0_1 h_S_) main_v61 main_c_23
  let main_v63 : IVec S_ 1 := andi main_v58 main_v62
  let main_v64 : FVec F S20 .f32 := Host.absf main_arg15
  let main_cst_24 : FVec F S_ .f32 := constant S_ .f32 0x7F800000#32
  let main_v65 : FVec F S20 .f32 := broadcastInDim S20 ![] bcast_S_S20 main_cst_24
  let main_v66 : IVec S20 1 := cmpf .olt main_v64 main_v65
  let main_c_25 : IVec S_ 1 := constantI S_ 1 1#1
  let main_v67 : IVec S_ 1 := (fun x v => Host.reduce IntOp.andi x v reducesTo_S20_S_d0 h_S_) main_v66 main_c_25
  fn_part4 (F := F) main_v63 main_v67

def fn_part2 {F : FTy → Type} [FloatOps F] (main_arg9 : FVec F S20 .f32) (main_arg10 : FVec F S40x64 .f32) (main_arg11 : FVec F S64 .f32) (main_arg12 : FVec F S64x32 .f32) (main_arg13 : FVec F S32 .f32) (main_arg14 : FVec F S32x20 .f32) (main_arg15 : FVec F S20 .f32) (main_v33 : IVec S_ 1) : IVec S_ 1 :=
  let main_v34 : FVec F S20 .f32 := Host.absf main_arg9
  let main_cst_12 : FVec F S_ .f32 := constant S_ .f32 0x7F800000#32
  let main_v35 : FVec F S20 .f32 := broadcastInDim S20 ![] bcast_S_S20 main_cst_12
  let main_v36 : IVec S20 1 := cmpf .olt main_v34 main_v35
  let main_c_13 : IVec S_ 1 := constantI S_ 1 1#1
  let main_v37 : IVec S_ 1 := (fun x v => Host.reduce IntOp.andi x v reducesTo_S20_S_d0 h_S_) main_v36 main_c_13
  let main_v38 : IVec S_ 1 := andi main_v33 main_v37
  let main_v39 : FVec F S40x64 .f32 := Host.absf main_arg10
  let main_cst_14 : FVec F S_ .f32 := constant S_ .f32 0x7F800000#32
  let main_v40 : FVec F S40x64 .f32 := broadcastInDim S40x64 ![] bcast_S_S40x64 main_cst_14
  let main_v41 : IVec S40x64 1 := cmpf .olt main_v39 main_v40
  let main_c_15 : IVec S_ 1 := constantI S_ 1 1#1
  let main_v42 : IVec S_ 1 := (fun x v => Host.reduce IntOp.andi x v reducesTo_S40x64_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg12
  let main_cst_18 : FVec F S_ .f32 := constant S_ .f32 0x7F800000#32
  let main_v50 : FVec F S64x32 .f32 := broadcastInDim S64x32 ![] bcast_S_S64x32 main_cst_18
  fn_part3 (F := F) main_arg13 main_arg14 main_arg15 main_v48 main_v49 main_v50

def fn_part1 {F : FTy → Type} [FloatOps F] (main_arg6 : FVec F S64x32 .f32) (main_arg7 : FVec F S32 .f32) (main_arg8 : FVec F S32x20 .f32) (main_arg9 : FVec F S20 .f32) (main_arg10 : FVec F S40x64 .f32) (main_arg11 : FVec F S64 .f32) (main_arg12 : FVec F S64x32 .f32) (main_arg13 : FVec F S32 .f32) (main_arg14 : FVec F S32x20 .f32) (main_arg15 : FVec F S20 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg6
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x20 .f32 := Host.absf main_arg8
  let main_cst_10 : FVec F S_ .f32 := constant S_ .f32 0x7F800000#32
  let main_v30 : FVec F S32x20 .f32 := broadcastInDim S32x20 ![] bcast_S_S32x20 main_cst_10
  let main_v31 : IVec S32x20 1 := cmpf .olt main_v29 main_v30
  let main_c_11 : IVec S_ 1 := constantI S_ 1 1#1
  let main_v32 : IVec S_ 1 := (fun x v => Host.reduce IntOp.andi x v reducesTo_S32x20_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S262144x4 .f32) (main_arg1 : FVec F S262144x16 .f32) (main_arg2 : IVec S4194304 32) (main_arg3 : IVec S4194304 32) (main_arg4 : FVec F S20x64 .f32) (main_arg5 : FVec F S64 .f32) (main_arg6 : FVec F S64x32 .f32) (main_arg7 : FVec F S32 .f32) (main_arg8 : FVec F S32x20 .f32) (main_arg9 : FVec F S20 .f32) (main_arg10 : FVec F S40x64 .f32) (main_arg11 : FVec F S64 .f32) (main_arg12 : FVec F S64x32 .f32) (main_arg13 : FVec F S32 .f32) (main_arg14 : FVec F S32x20 .f32) (main_arg15 : FVec F S20 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S262144x16 .f32 := Host.absf main_arg1
  let main_cst_0 : FVec F S_ .f32 := constant S_ .f32 0x7F800000#32
  let main_v5 : FVec F S262144x16 .f32 := broadcastInDim S262144x16 ![] bcast_S_S262144x16 main_cst_0
  let main_v6 : IVec S262144x16 1 := cmpf .olt main_v4 main_v5
  let main_c_1 : IVec S_ 1 := constantI S_ 1 1#1
  let main_v7 : IVec S_ 1 := (fun x v => Host.reduce IntOp.andi x v reducesTo_S262144x16_S_d0_1 h_S_) main_v6 main_c_1
  let main_v8 : IVec S_ 1 := andi main_v3 main_v7
  let main_v9 : FVec F S20x64 .f32 := Host.absf main_arg4
  let main_cst_2 : FVec F S_ .f32 := constant S_ .f32 0x7F800000#32
  let main_v10 : FVec F S20x64 .f32 := broadcastInDim S20x64 ![] bcast_S_S20x64 main_cst_2
  let main_v11 : IVec S20x64 1 := cmpf .olt main_v9 main_v10
  let main_c_3 : IVec S_ 1 := constantI S_ 1 1#1
  let main_v12 : IVec S_ 1 := (fun x v => Host.reduce IntOp.andi x v reducesTo_S20x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_arg14 main_arg15 main_v13 main_v16
-- ==== Kernel.lean ====
abbrev S262144x4 : Shape := ⟨2, ![262144, 4]⟩
abbrev S262144x16 : Shape := ⟨2, ![262144, 16]⟩
abbrev S4194304 : Shape := ⟨1, ![4194304]⟩
abbrev S20x64 : Shape := ⟨2, ![20, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S40x64 : Shape := ⟨2, ![40, 64]⟩
abbrev S_ : Shape := ⟨0, ![]⟩
abbrev S4194304x1 : Shape := ⟨2, ![4194304, 1]⟩
abbrev S4194304x4 : Shape := ⟨2, ![4194304, 4]⟩
abbrev S4194304x16 : Shape := ⟨2, ![4194304, 16]⟩
abbrev S4194304x20 : Shape := ⟨2, ![4194304, 20]⟩
abbrev S8192x4 : Shape := ⟨2, ![8192, 4]⟩
abbrev S8192x16 : Shape := ⟨2, ![8192, 16]⟩
abbrev S8192x20 : Shape := ⟨2, ![8192, 20]⟩
abbrev S8192x64 : Shape := ⟨2, ![8192, 64]⟩
abbrev S1x64 : Shape := ⟨2, ![1, 64]⟩
abbrev S8192x32 : Shape := ⟨2, ![8192, 32]⟩
abbrev S1x32 : Shape := ⟨2, ![1, 32]⟩
abbrev S1x20 : Shape := ⟨2, ![1, 20]⟩
abbrev S262144x20 : Shape := ⟨2, ![262144, 20]⟩
abbrev S4096x4 : Shape := ⟨2, ![4096, 4]⟩
abbrev S4096x16 : Shape := ⟨2, ![4096, 16]⟩
abbrev S4096x20 : Shape := ⟨2, ![4096, 20]⟩
abbrev S4096x40 : Shape := ⟨2, ![4096, 40]⟩
abbrev S4096x64 : Shape := ⟨2, ![4096, 64]⟩
abbrev S4096x32 : Shape := ⟨2, ![4096, 32]⟩

abbrev nBuf : Space → Nat
  | .hbm => 41
  | .vmem => 28
  | .smem => 0
  | _ => 0

abbrev bufTy : (tb : Table) → Fin (tcTables nBuf tb) → BufTy
  | .hbm, ⟨0, _⟩ => ⟨S262144x4, .f32⟩
  | .hbm, ⟨1, _⟩ => ⟨S262144x16, .f32⟩
  | .hbm, ⟨2, _⟩ => ⟨S4194304, .i32⟩
  | .hbm, ⟨3, _⟩ => ⟨S4194304, .i32⟩
  | .hbm, ⟨4, _⟩ => ⟨S20x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x20, .f32⟩
  | .hbm, ⟨9, _⟩ => ⟨S20, .f32⟩
  | .hbm, ⟨10, _⟩ => ⟨S40x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x20, .f32⟩
  | .hbm, ⟨15, _⟩ => ⟨S20, .f32⟩
  | .hbm, ⟨16, _⟩ => ⟨S_, .i32⟩
  | .hbm, ⟨17, _⟩ => ⟨S4194304, .i32⟩
  | .hbm, ⟨18, _⟩ => ⟨S4194304, .i1⟩
  | .hbm, ⟨19, _⟩ => ⟨S_, .i32⟩
  | .hbm, ⟨20, _⟩ => ⟨S4194304, .i32⟩
  | .hbm, ⟨21, _⟩ => ⟨S4194304, .i32⟩
  | .hbm, ⟨22, _⟩ => ⟨S4194304, .i32⟩
  | .hbm, ⟨23, _⟩ => ⟨S4194304x1, .i32⟩
  | .hbm, ⟨24, _⟩ => ⟨S4194304x4, .f32⟩
  | .hbm, ⟨25, _⟩ => ⟨S_, .i32⟩
  | .hbm, ⟨26, _⟩ => ⟨S4194304, .i32⟩
  | .hbm, ⟨27, _⟩ => ⟨S4194304, .i1⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S4194304, .i32⟩
  | .hbm, ⟨32, _⟩ => ⟨S4194304x1, .i32⟩
  | .hbm, ⟨33, _⟩ => ⟨S4194304x16, .f32⟩
  | .hbm, ⟨34, _⟩ => ⟨S4194304x20, .f32⟩
  | .hbm, ⟨35, _⟩ => ⟨S_, .f32⟩
  | .hbm, ⟨36, _⟩ => ⟨S262144x20, .f32⟩
  | .hbm, ⟨37, _⟩ => ⟨S4194304x1, .i32⟩
  | .hbm, ⟨38, _⟩ => ⟨S262144x20, .f32⟩
  | .hbm, ⟨39, _⟩ => ⟨S262144x4, .f32⟩
  | .hbm, ⟨40, _⟩ => ⟨S262144x16, .f32⟩
  | .local _ .vmem, ⟨0, _⟩ => ⟨S8192x4, .f32⟩
  | .local _ .vmem, ⟨1, _⟩ => ⟨S8192x4, .f32⟩
  | .local _ .vmem, ⟨2, _⟩ => ⟨S8192x16, .f32⟩
  | .local _ .vmem, ⟨3, _⟩ => ⟨S8192x16, .f32⟩
  | .local _ .vmem, ⟨4, _⟩ => ⟨S20x64, .f32⟩
  | .local _ .vmem, ⟨5, _⟩ => ⟨S64, .f32⟩
  | .local _ .vmem, ⟨6, _⟩ => ⟨S64x32, .f32⟩
  | .local _ .vmem, ⟨7, _⟩ => ⟨S32, .f32⟩
  | .local _ .vmem, ⟨8, _⟩ => ⟨S32x20, .f32⟩
  | .local _ .vmem, ⟨9, _⟩ => ⟨S20, .f32⟩
  | .local _ .vmem, ⟨10, _⟩ => ⟨S8192x20, .f32⟩
  | .local _ .vmem, ⟨11, _⟩ => ⟨S8192x20, .f32⟩
  | .local _ .vmem, ⟨12, _⟩ => ⟨S4096x4, .f32⟩
  | .local _ .vmem, ⟨13, _⟩ => ⟨S4096x4, .f32⟩
  | .local _ .vmem, ⟨14, _⟩ => ⟨S4096x16, .f32⟩
  | .local _ .vmem, ⟨15, _⟩ => ⟨S4096x16, .f32⟩
  | .local _ .vmem, ⟨16, _⟩ => ⟨S4096x20, .f32⟩
  | .local _ .vmem, ⟨17, _⟩ => ⟨S4096x20, .f32⟩
  | .local _ .vmem, ⟨18, _⟩ => ⟨S40x64, .f32⟩
  | .local _ .vmem, ⟨19, _⟩ => ⟨S64, .f32⟩
  | .local _ .vmem, ⟨20, _⟩ => ⟨S64x32, .f32⟩
  | .local _ .vmem, ⟨21, _⟩ => ⟨S32, .f32⟩
  | .local _ .vmem, ⟨22, _⟩ => ⟨S32x20, .f32⟩
  | .local _ .vmem, ⟨23, _⟩ => ⟨S20, .f32⟩
  | .local _ .vmem, ⟨24, _⟩ => ⟨S4096x4, .f32⟩
  | .local _ .vmem, ⟨25, _⟩ => ⟨S4096x4, .f32⟩
  | .local _ .vmem, ⟨26, _⟩ => ⟨S4096x16, .f32⟩
  | .local _ .vmem, ⟨27, _⟩ => ⟨S4096x16, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18_0 : Ref sig .tc := ⟨.hbm, 39, rfl⟩
abbrev main_v18_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S20x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8192x20 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x20 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S40x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x20 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S20 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4096x4 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S4096x16 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  inb_S8192x4_S8192x4_0_0 : ∀ a, (![0, 0] : Fin 2 → Nat) a + S8192x4.size a ≤ S8192x4.size a
  h_S8192x4 : 0 < S8192x4.numel
  shapeCasts_S8192x4_S8192x4 : S8192x4.ShapeCasts S8192x4
  inb_S8192x16_S8192x16_0_0 : ∀ a, (![0, 0] : Fin 2 → Nat) a + S8192x16.size a ≤ S8192x16.size a
  h_S8192x16 : 0 < S8192x16.numel
  shapeCasts_S8192x16_S8192x16 : S8192x16.ShapeCasts S8192x16
  concatenates_S8192x4_S8192x16_S8192x20_d1 : Shape.Concatenates [S8192x4, S8192x16] S8192x20 1
  bitsLt_bf16_f32 : FTy.bits .bf16 < FTy.bits .f32
  inb_S20x64_S20x64_0_0 : ∀ a, (![0, 0] : Fin 2 → Nat) a + S20x64.size a ≤ S20x64.size a
  h_S20x64 : 0 < S20x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S8192x32 : S1x32.Broadcasts S8192x32
  inb_S32x20_S32x20_0_0 : ∀ a, (![0, 0] : Fin 2 → Nat) a + S32x20.size a ≤ S32x20.size a
  h_S32x20 : 0 < S32x20.numel
  inb_S20_S20_0 : ∀ a, (![0] : Fin 1 → Nat) a + S20.size a ≤ S20.size a
  h_S20 : 0 < S20.numel
  shapeCasts_S20_S1x20 : S20.ShapeCasts S1x20
  broadcasts_S1x20_S8192x20 : S1x20.Broadcasts S8192x20
  inb_S8192x20_S8192x20_0_0 : ∀ a, (![0, 0] : Fin 2 → Nat) a + S8192x20.size a ≤ S8192x20.size a
  h_S8192x20 : 0 < S8192x20.numel
  bcast_S_S262144x20 : S_.BroadcastsInDim S262144x20 (![] : Fin 0 → Fin S262144x20.rank)
  inb_S4096x4_S4096x4_0_0 : ∀ a, (![0, 0] : Fin 2 → Nat) a + S4096x4.size a ≤ S4096x4.size a
  h_S4096x4 : 0 < S4096x4.numel
  inb_S4096x16_S4096x16_0_0 : ∀ a, (![0, 0] : Fin 2 → Nat) a + S4096x16.size a ≤ S4096x16.size a
  h_S4096x16 : 0 < S4096x16.numel
  inb_S4096x20_S4096x20_0_0 : ∀ a, (![0, 0] : Fin 2 → Nat) a + S4096x20.size a ≤ S4096x20.size a
  h_S4096x20 : 0 < S4096x20.numel
  shapeCasts_S4096x20_S4096x20 : S4096x20.ShapeCasts S4096x20
  concatenates_S4096x4_S4096x16_S4096x20_S4096x40_d1 : Shape.Concatenates [S4096x4, S4096x16, S4096x20] S4096x40 1
  inb_S40x64_S40x64_0_0 : ∀ a, (![0, 0] : Fin 2 → Nat) a + S40x64.size a ≤ S40x64.size a
  h_S40x64 : 0 < S40x64.numel
  broadcasts_S1x64_S4096x64 : S1x64.Broadcasts S4096x64
  broadcasts_S1x32_S4096x32 : S1x32.Broadcasts S4096x32
  broadcasts_S1x20_S4096x20 : S1x20.Broadcasts S4096x20
  slices_S4096x20_o0_0_S4096x4 : S4096x20.Slices ![0, 0] S4096x4
  slices_S4096x20_o0_4_S4096x16 : S4096x20.Slices ![0, 4] S4096x16
  gather_S262144x4_S4194304x1_S4194304x4_1_0_n_n_0_1_14_wf : GatherDims.WF S262144x4 S4194304x1 S4194304x4 [1] [0] [] [0] [] 1 ![1, 4]
  gather_S262144x16_S4194304x1_S4194304x16_1_0_n_n_0_1_116_wf : GatherDims.WF S262144x16 S4194304x1 S4194304x16 [1] [0] [] [0] [] 1 ![1, 16]
  dot_S8192x20_S20x64_S8192x64_1_0_0_1_n_n_wf : DotDims.WF S8192x20 S20x64 S8192x64 [1] [0] [0] [1] [] []
  dot_S8192x64_S64x32_S8192x32_1_0_0_1_n_n_wf : DotDims.WF S8192x64 S64x32 S8192x32 [1] [0] [0] [1] [] []
  dot_S8192x32_S32x20_S8192x20_1_0_0_1_n_n_wf : DotDims.WF S8192x32 S32x20 S8192x20 [1] [0] [0] [1] [] []
  scatter_S262144x20_S4194304x1_S4194304x20_1_0_0_1_wf : ScatterDims.WF S262144x20 S4194304x1 S4194304x20 [1] [0] [0] 1
  dot_S4096x40_S40x64_S4096x64_1_0_0_1_n_n_wf : DotDims.WF S4096x40 S40x64 S4096x64 [1] [0] [0] [1] [] []
  dot_S4096x64_S64x32_S4096x32_1_0_0_1_n_n_wf : DotDims.WF S4096x64 S64x32 S4096x32 [1] [0] [0] [1] [] []
  dot_S4096x32_S32x20_S4096x20_1_0_0_1_n_n_wf : DotDims.WF S4096x32 S32x20 S4096x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x4.size a ≤ S4194304x4.size a
  hwx0_0 : ∀ i : grid0.Coords, EltTy.bits .f32 = 32 ∨ (Rect.block (s := S4194304x4) S8192x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x16.size a ≤ S4194304x16.size a
  hwx0_1 : ∀ i : grid0.Coords, EltTy.bits .f32 = 32 ∨ (Rect.block (s := S4194304x16) S8192x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S20x64.size a ≤ S20x64.size a
  hwx0_2 : ∀ i : grid0.Coords, EltTy.bits .f32 = 32 ∨ (Rect.block (s := S20x64) S20x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x20.size a ≤ S32x20.size a
  hwx0_6 : ∀ i : grid0.Coords, EltTy.bits .f32 = 32 ∨ (Rect.block (s := S32x20) S32x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S20.size a ≤ S20.size a
  hwx0_7 : ∀ i : grid0.Coords, EltTy.bits .f32 = 32 ∨ (Rect.block (s := S20) S20.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8192x20.size a ≤ S4194304x20.size a
  hwx0_8 : ∀ i : grid0.Coords, EltTy.bits .f32 = 32 ∨ (Rect.block (s := S4194304x20) S8192x20.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x4.size a ≤ S262144x4.size a
  hwx1_0 : ∀ i : grid1.Coords, EltTy.bits .f32 = 32 ∨ (Rect.block (s := S262144x4) S4096x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x16.size a ≤ S262144x16.size a
  hwx1_1 : ∀ i : grid1.Coords, EltTy.bits .f32 = 32 ∨ (Rect.block (s := S262144x16) S4096x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x20.size a ≤ S262144x20.size a
  hwx1_2 : ∀ i : grid1.Coords, EltTy.bits .f32 = 32 ∨ (Rect.block (s := S262144x20) S4096x20.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S40x64.size a ≤ S40x64.size a
  hwx1_3 : ∀ i : grid1.Coords, EltTy.bits .f32 = 32 ∨ (Rect.block (s := S40x64) S40x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32.size a ≤ S32.size a
  hwx1_6 : ∀ i : grid1.Coords, EltTy.bits .f32 = 32 ∨ (Rect.block (s := S32) S32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x20.size a ≤ S32x20.size a
  hwx1_7 : ∀ i : grid1.Coords, EltTy.bits .f32 = 32 ∨ (Rect.block (s := S32x20) S32x20.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S20.size a ≤ S20.size a
  hwx1_8 : ∀ i : grid1.Coords, EltTy.bits .f32 = 32 ∨ (Rect.block (s := S20) S20.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096x4.size a ≤ S262144x4.size a
  hwx1_9 : ∀ i : grid1.Coords, EltTy.bits .f32 = 32 ∨ (Rect.block (s := S262144x4) S4096x4.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S4096x16.size a ≤ S262144x16.size a
  hwx1_10 : ∀ i : grid1.Coords, EltTy.bits .f32 = 32 ∨ (Rect.block (s := S262144x16) S4096x16.size (cc1_transform_10 i) (hinb1_10 i)).WholeWords (EltTy.packing .f32)

variable [Facts₀]

def gather_S262144x4_S4194304x1_S4194304x4_1_0_n_n_0_1_14 : GatherDims S262144x4 S4194304x1 S4194304x4 where
  offsetDims := [1]
  collapsedSliceDims := [0]
  operandBatchingDims := []
  startIndicesBatchingDims := []
  startIndexMap := [0]
  indexVectorDim := 1
  sliceSizes := ![1, 4]
  wf := gather_S262144x4_S4194304x1_S4194304x4_1_0_n_n_0_1_14_wf
def gather_S262144x16_S4194304x1_S4194304x16_1_0_n_n_0_1_116 : GatherDims S262144x16 S4194304x1 S4194304x16 where
  offsetDims := [1]
  collapsedSliceDims := [0]
  operandBatchingDims := []
  startIndicesBatchingDims := []
  startIndexMap := [0]
  indexVectorDim := 1
  sliceSizes := ![1, 16]
  wf := gather_S262144x16_S4194304x1_S4194304x16_1_0_n_n_0_1_116_wf
def dot_S8192x20_S20x64_S8192x64_1_0_0_1_n_n : DotDims S8192x20 S20x64 S8192x64 where
  lhsContracting := [1]
  rhsContracting := [0]
  lhsNonContracting := [0]
  rhsNonContracting := [1]
  lhsBatch := []
  rhsBatch := []
  wf := dot_S8192x20_S20x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x20_S8192x20_1_0_0_1_n_n : DotDims S8192x32 S32x20 S8192x20 where
  lhsContracting := [1]
  rhsContracting := [0]
  lhsNonContracting := [0]
  rhsNonContracting := [1]
  lhsBatch := []
  rhsBatch := []
  wf := dot_S8192x32_S32x20_S8192x20_1_0_0_1_n_n_wf
def scatter_S262144x20_S4194304x1_S4194304x20_1_0_0_1 : ScatterDims S262144x20 S4194304x1 S4194304x20 where
  updateWindowDims := [1]
  insertedWindowDims := [0]
  scatterDimsToOperandDims := [0]
  indexVectorDim := 1
  wf := scatter_S262144x20_S4194304x1_S4194304x20_1_0_0_1_wf
def dot_S4096x40_S40x64_S4096x64_1_0_0_1_n_n : DotDims S4096x40 S40x64 S4096x64 where
  lhsContracting := [1]
  rhsContracting := [0]
  lhsNonContracting := [0]
  rhsNonContracting := [1]
  lhsBatch := []
  rhsBatch := []
  wf := dot_S4096x40_S40x64_S4096x64_1_0_0_1_n_n_wf
def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x20_S4096x20_1_0_0_1_n_n : DotDims S4096x32 S32x20 S4096x20 where
  lhsContracting := [1]
  rhsContracting := [0]
  lhsNonContracting := [0]
  rhsNonContracting := [1]
  lhsBatch := []
  rhsBatch := []
  wf := dot_S4096x32_S32x20_S4096x20_1_0_0_1_n_n_wf

abbrev win0_0 : Pipeline.Window sig grid0 :=
  Pipeline.Window.ofSpec (Memref.whole main_v6) S8192x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S8192x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S20x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S32x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S8192x20.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S4096x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S4096x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S4096x20.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S40x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg13) S32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S32x20.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg15) S20.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v18_0) S4096x4.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v18_1) S4096x16.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S262144x4 : Shape := ⟨2, ![262144, 4]⟩
abbrev S262144x16 : Shape := ⟨2, ![262144, 16]⟩
abbrev S4194304 : Shape := ⟨1, ![4194304]⟩
abbrev S20x64 : Shape := ⟨2, ![20, 64]⟩
abbrev S64 : Shape := ⟨1, ![64]⟩
abbrev S64x32 : Shape := ⟨2, ![64, 32]⟩
abbrev S32 : Shape := ⟨1, ![32]⟩
abbrev S32x20 : Shape := ⟨2, ![32, 20]⟩
abbrev S20 : Shape := ⟨1, ![20]⟩
abbrev S40x64 : Shape := ⟨2, ![40, 64]⟩
abbrev S_ : Shape := ⟨0, ![]⟩
abbrev S4194304x1 : Shape := ⟨2, ![4194304, 1]⟩
abbrev S4194304x4 : Shape := ⟨2, ![4194304, 4]⟩
abbrev S4194304x16 : Shape := ⟨2, ![4194304, 16]⟩
abbrev S4194304x20 : Shape := ⟨2, ![4194304, 20]⟩
abbrev S4194304x64 : Shape := ⟨2, ![4194304, 64]⟩
abbrev S1x64 : Shape := ⟨2, ![1, 64]⟩
abbrev S4194304x32 : Shape := ⟨2, ![4194304, 32]⟩
abbrev S1x32 : Shape := ⟨2, ![1, 32]⟩
abbrev S1x20 : Shape := ⟨2, ![1, 20]⟩
abbrev S262144x20 : Shape := ⟨2, ![262144, 20]⟩
abbrev S262144x40 : Shape := ⟨2, ![262144, 40]⟩
abbrev S262144x64 : Shape := ⟨2, ![262144, 64]⟩
abbrev S262144x32 : Shape := ⟨2, ![262144, 32]⟩

abbrev nBuf : Space → Nat
  | .hbm => 78
  | .vmem => 0
  | .smem => 0
  | _ => 0

abbrev bufTy : (tb : Table) → Fin (tcTables nBuf tb) → BufTy
  | .hbm, ⟨0, _⟩ => ⟨S262144x4, .f32⟩
  | .hbm, ⟨1, _⟩ => ⟨S262144x16, .f32⟩
  | .hbm, ⟨2, _⟩ => ⟨S4194304, .i32⟩
  | .hbm, ⟨3, _⟩ => ⟨S4194304, .i32⟩
  | .hbm, ⟨4, _⟩ => ⟨S20x64, .f32⟩
  | .hbm, ⟨5, _⟩ => ⟨S64, .f32⟩
  | .hbm, ⟨6, _⟩ => ⟨S64x32, .f32⟩
  | .hbm, ⟨7, _⟩ => ⟨S32, .f32⟩
  | .hbm, ⟨8, _⟩ => ⟨S32x20, .f32⟩
  | .hbm, ⟨9, _⟩ => ⟨S20, .f32⟩
  | .hbm, ⟨10, _⟩ => ⟨S40x64, .f32⟩
  | .hbm, ⟨11, _⟩ => ⟨S64, .f32⟩
  | .hbm, ⟨12, _⟩ => ⟨S64x32, .f32⟩
  | .hbm, ⟨13, _⟩ => ⟨S32, .f32⟩
  | .hbm, ⟨14, _⟩ => ⟨S32x20, .f32⟩
  | .hbm, ⟨15, _⟩ => ⟨S20, .f32⟩
  | .hbm, ⟨16, _⟩ => ⟨S_, .i32⟩
  | .hbm, ⟨17, _⟩ => ⟨S4194304, .i32⟩
  | .hbm, ⟨18, _⟩ => ⟨S4194304, .i1⟩
  | .hbm, ⟨19, _⟩ => ⟨S_, .i32⟩
  | .hbm, ⟨20, _⟩ => ⟨S4194304, .i32⟩
  | .hbm, ⟨21, _⟩ => ⟨S4194304, .i32⟩
  | .hbm, ⟨22, _⟩ => ⟨S4194304, .i32⟩
  | .hbm, ⟨23, _⟩ => ⟨S4194304x1, .i32⟩
  | .hbm, ⟨24, _⟩ => ⟨S4194304x4, .f32⟩
  | .hbm, ⟨25, _⟩ => ⟨S_, .i32⟩
  | .hbm, ⟨26, _⟩ => ⟨S4194304, .i32⟩
  | .hbm, ⟨27, _⟩ => ⟨S4194304, .i1⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S4194304, .i32⟩
  | .hbm, ⟨32, _⟩ => ⟨S4194304x1, .i32⟩
  | .hbm, ⟨33, _⟩ => ⟨S4194304x16, .f32⟩
  | .hbm, ⟨34, _⟩ => ⟨S4194304x20, .f32⟩
  | .hbm, ⟨35, _⟩ => ⟨S4194304x64, .f32⟩
  | .hbm, ⟨36, _⟩ => ⟨S1x64, .f32⟩
  | .hbm, ⟨37, _⟩ => ⟨S4194304x64, .f32⟩
  | .hbm, ⟨38, _⟩ => ⟨S4194304x64, .f32⟩
  | .hbm, ⟨39, _⟩ => ⟨S_, .f32⟩
  | .hbm, ⟨40, _⟩ => ⟨S4194304x64, .f32⟩
  | .hbm, ⟨41, _⟩ => ⟨S4194304x64, .f32⟩
  | .hbm, ⟨42, _⟩ => ⟨S4194304x32, .f32⟩
  | .hbm, ⟨43, _⟩ => ⟨S1x32, .f32⟩
  | .hbm, ⟨44, _⟩ => ⟨S4194304x32, .f32⟩
  | .hbm, ⟨45, _⟩ => ⟨S4194304x32, .f32⟩
  | .hbm, ⟨46, _⟩ => ⟨S_, .f32⟩
  | .hbm, ⟨47, _⟩ => ⟨S4194304x32, .f32⟩
  | .hbm, ⟨48, _⟩ => ⟨S4194304x32, .f32⟩
  | .hbm, ⟨49, _⟩ => ⟨S4194304x20, .f32⟩
  | .hbm, ⟨50, _⟩ => ⟨S1x20, .f32⟩
  | .hbm, ⟨51, _⟩ => ⟨S4194304x20, .f32⟩
  | .hbm, ⟨52, _⟩ => ⟨S4194304x20, .f32⟩
  | .hbm, ⟨53, _⟩ => ⟨S_, .f32⟩
  | .hbm, ⟨54, _⟩ => ⟨S262144x20, .f32⟩
  | .hbm, ⟨55, _⟩ => ⟨S4194304x1, .i32⟩
  | .hbm, ⟨56, _⟩ => ⟨S262144x20, .f32⟩
  | .hbm, ⟨57, _⟩ => ⟨S262144x40, .f32⟩
  | .hbm, ⟨58, _⟩ => ⟨S262144x64, .f32⟩
  | .hbm, ⟨59, _⟩ => ⟨S1x64, .f32⟩
  | .hbm, ⟨60, _⟩ => ⟨S262144x64, .f32⟩
  | .hbm, ⟨61, _⟩ => ⟨S262144x64, .f32⟩
  | .hbm, ⟨62, _⟩ => ⟨S_, .f32⟩
  | .hbm, ⟨63, _⟩ => ⟨S262144x64, .f32⟩
  | .hbm, ⟨64, _⟩ => ⟨S262144x64, .f32⟩
  | .hbm, ⟨65, _⟩ => ⟨S262144x32, .f32⟩
  | .hbm, ⟨66, _⟩ => ⟨S1x32, .f32⟩
  | .hbm, ⟨67, _⟩ => ⟨S262144x32, .f32⟩
  | .hbm, ⟨68, _⟩ => ⟨S262144x32, .f32⟩
  | .hbm, ⟨69, _⟩ => ⟨S_, .f32⟩
  | .hbm, ⟨70, _⟩ => ⟨S262144x32, .f32⟩
  | .hbm, ⟨71, _⟩ => ⟨S262144x32, .f32⟩
  | .hbm, ⟨72, _⟩ => ⟨S262144x20, .f32⟩
  | .hbm, ⟨73, _⟩ => ⟨S1x20, .f32⟩
  | .hbm, ⟨74, _⟩ => ⟨S262144x20, .f32⟩
  | .hbm, ⟨75, _⟩ => ⟨S262144x20, .f32⟩
  | .hbm, ⟨76, _⟩ => ⟨S262144x4, .f32⟩
  | .hbm, ⟨77, _⟩ => ⟨S262144x16, .f32⟩
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_call2_cst : Ref sig .tc := ⟨.hbm, 62, rfl⟩
abbrev main_call2_v0 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call3_cst : Ref sig .tc := ⟨.hbm, 69, rfl⟩
abbrev main_call3_v0 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  concatenates_S4194304x4_S4194304x16_S4194304x20_d1 : Shape.Concatenates [S4194304x4, S4194304x16] S4194304x20 1
  bcast_S64_S1x64_1 : S64.BroadcastsInDim S1x64 (![1] : Fin 1 → Fin S1x64.rank)
  bcast_S1x64_S4194304x64_0_1 : S1x64.BroadcastsInDim S4194304x64 (![0, 1] : Fin 2 → Fin S4194304x64.rank)
  bcast_S_S4194304x64 : S_.BroadcastsInDim S4194304x64 (![] : Fin 0 → Fin S4194304x64.rank)
  bcast_S32_S1x32_1 : S32.BroadcastsInDim S1x32 (![1] : Fin 1 → Fin S1x32.rank)
  bcast_S1x32_S4194304x32_0_1 : S1x32.BroadcastsInDim S4194304x32 (![0, 1] : Fin 2 → Fin S4194304x32.rank)
  bcast_S_S4194304x32 : S_.BroadcastsInDim S4194304x32 (![] : Fin 0 → Fin S4194304x32.rank)
  bcast_S20_S1x20_1 : S20.BroadcastsInDim S1x20 (![1] : Fin 1 → Fin S1x20.rank)
  bcast_S1x20_S4194304x20_0_1 : S1x20.BroadcastsInDim S4194304x20 (![0, 1] : Fin 2 → Fin S4194304x20.rank)
  bcast_S_S262144x20 : S_.BroadcastsInDim S262144x20 (![] : Fin 0 → Fin S262144x20.rank)
  concatenates_S262144x4_S262144x16_S262144x20_S262144x40_d1 : Shape.Concatenates [S262144x4, S262144x16, S262144x20] S262144x40 1
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  bcast_S1x32_S262144x32_0_1 : S1x32.BroadcastsInDim S262144x32 (![0, 1] : Fin 2 → Fin S262144x32.rank)
  bcast_S_S262144x32 : S_.BroadcastsInDim S262144x32 (![] : Fin 0 → Fin S262144x32.rank)
  bcast_S1x20_S262144x20_0_1 : S1x20.BroadcastsInDim S262144x20 (![0, 1] : Fin 2 → Fin S262144x20.rank)
  slices_S262144x20_S262144x4_0_0 : S262144x20.Slices ![0, 0] S262144x4
  slices_S262144x20_S262144x16_0_4 : S262144x20.Slices ![0, 4] S262144x16
  gather_S262144x4_S4194304x1_S4194304x4_1_0_n_n_0_1_14_wf : GatherDims.WF S262144x4 S4194304x1 S4194304x4 [1] [0] [] [0] [] 1 ![1, 4]
  gather_S262144x16_S4194304x1_S4194304x16_1_0_n_n_0_1_116_wf : GatherDims.WF S262144x16 S4194304x1 S4194304x16 [1] [0] [] [0] [] 1 ![1, 16]
  dot_S4194304x20_S20x64_S4194304x64_1_0_0_1_n_n_wf : DotDims.WF S4194304x20 S20x64 S4194304x64 [1] [0] [0] [1] [] []
  dot_S4194304x64_S64x32_S4194304x32_1_0_0_1_n_n_wf : DotDims.WF S4194304x64 S64x32 S4194304x32 [1] [0] [0] [1] [] []
  dot_S4194304x32_S32x20_S4194304x20_1_0_0_1_n_n_wf : DotDims.WF S4194304x32 S32x20 S4194304x20 [1] [0] [0] [1] [] []
  scatter_S262144x20_S4194304x1_S4194304x20_1_0_0_1_wf : ScatterDims.WF S262144x20 S4194304x1 S4194304x20 [1] [0] [0] 1
  dot_S262144x40_S40x64_S262144x64_1_0_0_1_n_n_wf : DotDims.WF S262144x40 S40x64 S262144x64 [1] [0] [0] [1] [] []
  dot_S262144x64_S64x32_S262144x32_1_0_0_1_n_n_wf : DotDims.WF S262144x64 S64x32 S262144x32 [1] [0] [0] [1] [] []
  dot_S262144x32_S32x20_S262144x20_1_0_0_1_n_n_wf : DotDims.WF S262144x32 S32x20 S262144x20 [1] [0] [0] [1] [] []

variable [Facts₀]

def gather_S262144x4_S4194304x1_S4194304x4_1_0_n_n_0_1_14 : GatherDims S262144x4 S4194304x1 S4194304x4 where
  offsetDims := [1]
  collapsedSliceDims := [0]
  operandBatchingDims := []
  startIndicesBatchingDims := []
  startIndexMap := [0]
  indexVectorDim := 1
  sliceSizes := ![1, 4]
  wf := gather_S262144x4_S4194304x1_S4194304x4_1_0_n_n_0_1_14_wf
def gather_S262144x16_S4194304x1_S4194304x16_1_0_n_n_0_1_116 : GatherDims S262144x16 S4194304x1 S4194304x16 where
  offsetDims := [1]
  collapsedSliceDims := [0]
  operandBatchingDims := []
  startIndicesBatchingDims := []
  startIndexMap := [0]
  indexVectorDim := 1
  sliceSizes := ![1, 16]
  wf := gather_S262144x16_S4194304x1_S4194304x16_1_0_n_n_0_1_116_wf
def dot_S4194304x20_S20x64_S4194304x64_1_0_0_1_n_n : DotDims S4194304x20 S20x64 S4194304x64 where
  lhsContracting := [1]
  rhsContracting := [0]
  lhsNonContracting := [0]
  rhsNonContracting := [1]
  lhsBatch := []
  rhsBatch := []
  wf := dot_S4194304x20_S20x64_S4194304x64_1_0_0_1_n_n_wf
def dot_S4194304x64_S64x32_S4194304x32_1_0_0_1_n_n : DotDims S4194304x64 S64x32 S4194304x32 where
  lhsContracting := [1]
  rhsContracting := [0]
  lhsNonContracting := [0]
  rhsNonContracting := [1]
  lhsBatch := []
  rhsBatch := []
  wf := dot_S4194304x64_S64x32_S4194304x32_1_0_0_1_n_n_wf
def dot_S4194304x32_S32x20_S4194304x20_1_0_0_1_n_n : DotDims S4194304x32 S32x20 S4194304x20 where
  lhsContracting := [1]
  rhsContracting := [0]
  lhsNonContracting := [0]
  rhsNonContracting := [1]
  lhsBatch := []
  rhsBatch := []
  wf := dot_S4194304x32_S32x20_S4194304x20_1_0_0_1_n_n_wf
def scatter_S262144x20_S4194304x1_S4194304x20_1_0_0_1 : ScatterDims S262144x20 S4194304x1 S4194304x20 where
  updateWindowDims := [1]
  insertedWindowDims := [0]
  scatterDimsToOperandDims := [0]
  indexVectorDim := 1
  wf := scatter_S262144x20_S4194304x1_S4194304x20_1_0_0_1_wf
def dot_S262144x40_S40x64_S262144x64_1_0_0_1_n_n : DotDims S262144x40 S40x64 S262144x64 where
  lhsContracting := [1]
  rhsContracting := [0]
  lhsNonContracting := [0]
  rhsNonContracting := [1]
  lhsBatch := []
  rhsBatch := []
  wf := dot_S262144x40_S40x64_S262144x64_1_0_0_1_n_n_wf
def dot_S262144x64_S64x32_S262144x32_1_0_0_1_n_n : DotDims S262144x64 S64x32 S262144x32 where
  lhsContracting := [1]
  rhsContracting := [0]
  lhsNonContracting := [0]
  rhsNonContracting := [1]
  lhsBatch := []
  rhsBatch := []
  wf := dot_S262144x64_S64x32_S262144x32_1_0_0_1_n_n_wf
def dot_S262144x32_S32x20_S262144x20_1_0_0_1_n_n : DotDims S262144x32 S32x20 S262144x20 where
  lhsContracting := [1]
  rhsContracting := [0]
  lhsNonContracting := [0]
  rhsNonContracting := [1]
  lhsBatch := []
  rhsBatch := []
  wf := dot_S262144x32_S32x20_S262144x20_1_0_0_1_n_n_wf

class Facts : Prop extends Facts₀ where

variable [Facts]
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«161232_j57629871178420_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«161232_j57629871178420_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.LibPerceptron.lean ====
/-
  General lemmas: a perceptron of three dense layers on the extended reals, read as ONE function of the rows of the
  array it is applied to — `relu (relu (X · W₁ + b₁) · W₂ + b₂) · W₃ + b₃`, the biases laid along every row and the
  cut at zero taken entry by entry. Row `p` of the result depends on row `p` of `X` only, at any number of rows:
  a block of consecutive rows of the result is the same function of that block of rows. The spelling a host program
  gives it (three general dots, biases broadcast in two steps, maxima against a broadcast scalar zero) and the
  spelling a vector unit gives it (three products accumulated into zero splats over operands recast to a narrower
  float format, biases recast to one row and broadcast down the rows, maxima against a splat zero) are both this
  function. None mentions a program.
-/
import proofs.«161232_j57629871178420_2_alg».proof.Proof.LibRowBlocks

noncomputable section

namespace Cert.Perceptron

open Idealize.ShloMosaic Idealize.ShloMosaic.ValueIdx Cert.LayoutLib Cert.DenseLib Cert.RowBlocks

/-- `relu (relu (X · W₁ + b₁) · W₂ + b₂) · W₃ + b₃`. -/
def mlp3 {M K A B N : ℕ} (X : (⟨2, ![M, K]⟩ : Shape).Idx → EReal)
    (W₁ : (⟨2, ![K, A]⟩ : Shape).Idx → EReal) (b₁ : Fin A → EReal)
    (W₂ : (⟨2, ![A, B]⟩ : Shape).Idx → EReal) (b₂ : Fin B → EReal)
    (W₃ : (⟨2, ![B, N]⟩ : Shape).Idx → EReal) (b₃ : Fin N → EReal) : (⟨2, ![M, N]⟩ : Shape).Idx → EReal :=
  biased (layer (layer (mm X W₁) b₁ W₂) b₂ W₃) b₃

/-- ROW-LOCALITY: an entry of the perceptron's result is determined by its row of the input. If row `j 0` of `X'`
    is row `i 0` of `X` and the columns `j 1`, `i 1` are the same, the two results agree there — whatever the
    heights of the two arrays. -/
theorem mlp3_eq_of_row {M M' K A B N : ℕ} (X' : (⟨2, ![M', K]⟩ : Shape).Idx → EReal) (X : (⟨2, ![M, K]⟩ : Shape).Idx → EReal)
    (W₁ : (⟨2, ![K, A]⟩ : Shape).Idx → EReal) (b₁ : Fin A → EReal)
    (W₂ : (⟨2, ![A, B]⟩ : Shape).Idx → EReal) (b₂ : Fin B → EReal)
    (W₃ : (⟨2, ![B, N]⟩ : Shape).Idx → EReal) (b₃ : Fin N → EReal)
    (j : (⟨2, ![M', N]⟩ : Shape).Idx) (i : (⟨2, ![M, N]⟩ : Shape).Idx) (hq : (j 1).val = (i 1).val)
    (hx : ∀ k : Fin K, X' (ix2 (n0 := M') (j 0) k) = X (ix2 (n0 := M) (i 0) k)) :
    mlp3 X' W₁ b₁ W₂ b₂ W₃ b₃ j = mlp3 X W₁ b₁ W₂ b₂ W₃ b₃ i := by
  refine biased_eq_of_entry _ _ _ _ j i rfl hq ?_
  refine layer_eq_of_row _ _ _ _ _ _ j i rfl rfl hq fun k => ?_
  refine layer_eq_of_row _ _ _ _ _ _ (ix2 (n0 := M') (j 0) k) (ix2 (n0 := M) (i 0) k) rfl rfl rfl fun k' => ?_
  exact mm_eq_of_row _ _ _ _ (ix2 (n0 := M') (j 0) k') (ix2 (n0 := M) (i 0) k') rfl rfl hx

/-- THE HOST'S SPELLING is the perceptron. -/
theorem mlp3_host {M K A B N : ℕ}
    (D₁ : DotDims ⟨2, ![M, K]⟩ ⟨2, ![K, A]⟩ ⟨2, ![M, A]⟩) (hD₁ : D₁ = DotDims.plain M K A)
    (D₂ : DotDims ⟨2, ![M, A]⟩ ⟨2, ![A, B]⟩ ⟨2, ![M, B]⟩) (hD₂ : D₂ = DotDims.plain M A B)
    (D₃ : DotDims ⟨2, ![M, B]⟩ ⟨2, ![B, N]⟩ ⟨2, ![M, N]⟩) (hD₃ : D₃ = DotDims.plain M B N)
    (X : FVec Ideal ⟨2, ![M, K]⟩ .f32)
    (W₁ : FVec Ideal ⟨2, ![K, A]⟩ .f32) (b₁ : FVec Ideal ⟨1, ![A]⟩ .f32)
    (W₂ : FVec Ideal ⟨2, ![A, B]⟩ .f32) (b₂ : FVec Ideal ⟨1, ![B]⟩ .f32)
    (W₃ : FVec Ideal ⟨2, ![B, N]⟩ .f32) (b₃ : FVec Ideal ⟨1, ![N]⟩ .f32)
    (r₁ : (⟨1, ![A]⟩ : Shape).BroadcastsInDim ⟨2, ![1, A]⟩ (![1] : Fin 1 → Fin 2))
    (c₁ : (⟨2, ![1, A]⟩ : Shape).BroadcastsInDim ⟨2, ![M, A]⟩ (![0, 1] : Fin 2 → Fin 2))
    (z₁ : (⟨0, ![]⟩ : Shape).BroadcastsInDim ⟨2, ![M, A]⟩ (![] : Fin 0 → Fin 2))
    (r₂ : (⟨1, ![B]⟩ : Shape).BroadcastsInDim ⟨2, ![1, B]⟩ (![1] : Fin 1 → Fin 2))
    (c₂ : (⟨2, ![1, B]⟩ : Shape).BroadcastsInDim ⟨2, ![M, B]⟩ (![0, 1] : Fin 2 → Fin 2))
    (z₂ : (⟨0, ![]⟩ : Shape).BroadcastsInDim ⟨2, ![M, B]⟩ (![] : Fin 0 → Fin 2))
    (r₃ : (⟨1, ![N]⟩ : Shape).BroadcastsInDim ⟨2, ![1, N]⟩ (![1] : Fin 1 → Fin 2))
    (c₃ : (⟨2, ![1, N]⟩ : Shape).BroadcastsInDim ⟨2, ![M, N]⟩ (![0, 1] : Fin 2 → Fin 2)) :
    addf (Host.dotGeneral D₃ none
        (maximumf (addf (Host.dotGeneral D₂ none
            (maximumf (addf (Host.dotGeneral D₁ none X W₁)
                (broadcastInDim ⟨2, ![M, A]⟩ ![0, 1] c₁ (broadcastInDim ⟨2, ![1, A]⟩ ![1] r₁ b₁)))
              (broadcastInDim ⟨2, ![M, A]⟩ ![] z₁ (constant (F := Ideal) ⟨0, ![]⟩ .f32 0x00000000#32))) W₂)
            (broadcastInDim ⟨2, ![M, B]⟩ ![0, 1] c₂ (broadcastInDim ⟨2, ![1, B]⟩ ![1] r₂ b₂)))
          (broadcastInDim ⟨2, ![M, B]⟩ ![] z₂ (constant (F := Ideal) ⟨0, ![]⟩ .f32 0x00000000#32))) W₃)
      (broadcastInDim ⟨2, ![M, N]⟩ ![0, 1] c₃ (broadcastInDim ⟨2, ![1, N]⟩ ![1] r₃ b₃))
    = mlp3 X W₁ (fun c => b₁ (ix1 c)) W₂ (fun c => b₂ (ix1 c)) W₃ (fun c => b₃ (ix1 c)) := by
  rw [dotGeneral_eq_mm D₁ hD₁, broadcastInDim_eq_rows b₁ r₁ c₁, addf_eq_plus, maximumf_bcast_zero,
    dotGeneral_eq_mm D₂ hD₂, broadcastInDim_eq_rows b₂ r₂ c₂, addf_eq_plus, maximumf_bcast_zero,
    dotGeneral_eq_mm D₃ hD₃, broadcastInDim_eq_rows b₃ r₃ c₃, addf_eq_plus]
  rfl

/-- THE VECTOR UNIT'S SPELLING is the perceptron: the recasts to a narrower float format are the identity on the
    extended reals, a product accumulated into a zero splat is the product, a bias recast to one row and broadcast
    down the rows is the bias laid along every row. -/
theorem mlp3_vector {M K A B N : ℕ} {ψ : FTy} (hψ : ψ.bits < FTy.f32.bits)
    (D₁ : DotDims ⟨2, ![M, K]⟩ ⟨2, ![K, A]⟩ ⟨2, ![M, A]⟩) (hD₁ : D₁ = DotDims.plain M K A)
    (D₂ : DotDims ⟨2, ![M, A]⟩ ⟨2, ![A, B]⟩ ⟨2, ![M, B]⟩) (hD₂ : D₂ = DotDims.plain M A B)
    (D₃ : DotDims ⟨2, ![M, B]⟩ ⟨2, ![B, N]⟩ ⟨2, ![M, N]⟩) (hD₃ : D₃ = DotDims.plain M B N)
    (X : FVec Ideal ⟨2, ![M, K]⟩ .f32)
    (W₁ : FVec Ideal ⟨2, ![K, A]⟩ .f32) (b₁ : FVec Ideal ⟨1, ![A]⟩ .f32)
    (W₂ : FVec Ideal ⟨2, ![A, B]⟩ .f32) (b₂ : FVec Ideal ⟨1, ![B]⟩ .f32)
    (W₃ : FVec Ideal ⟨2, ![B, N]⟩ .f32) (b₃ : FVec Ideal ⟨1, ![N]⟩ .f32)
    (s₁ : (⟨1, ![A]⟩ : Shape).ShapeCasts ⟨2, ![1, A]⟩) (t₁ : (⟨2, ![1, A]⟩ : Shape).Broadcasts ⟨2, ![M, A]⟩)
    (s₂ : (⟨1, ![B]⟩ : Shape).ShapeCasts ⟨2, ![1, B]⟩) (t₂ : (⟨2, ![1, B]⟩ : Shape).Broadcasts ⟨2, ![M, B]⟩)
    (s₃ : (⟨1, ![N]⟩ : Shape).ShapeCasts ⟨2, ![1, N]⟩) (t₃ : (⟨2, ![1, N]⟩ : Shape).Broadcasts ⟨2, ![M, N]⟩) :
    addf (matmul D₃ none
        (truncf ψ (maximumf (addf (matmul D₂ none
            (truncf ψ (maximumf (addf (matmul D₁ none (truncf ψ X hψ) (truncf ψ W₁ hψ)
                  (constant ⟨2, ![M, A]⟩ .f32 0x00000000#32))
                (broadcastTo ⟨2, ![M, A]⟩ (shapeCast ⟨2, ![1, A]⟩ b₁ s₁) t₁))
              (broadcast ⟨2, ![M, A]⟩ (Scalar.ofBits (F := Ideal) .f32 0x00000000#32))) hψ)
            (truncf ψ W₂ hψ) (constant ⟨2, ![M, B]⟩ .f32 0x00000000#32))
            (broadcastTo ⟨2, ![M, B]⟩ (shapeCast ⟨2, ![1, B]⟩ b₂ s₂) t₂))
          (broadcast ⟨2, ![M, B]⟩ (Scalar.ofBits (F := Ideal) .f32 0x00000000#32))) hψ)
        (truncf ψ W₃ hψ) (constant ⟨2, ![M, N]⟩ .f32 0x00000000#32))
      (broadcastTo ⟨2, ![M, N]⟩ (shapeCast ⟨2, ![1, N]⟩ b₃ s₃) t₃)
    = mlp3 X W₁ (fun c => b₁ (ix1 c)) W₂ (fun c => b₂ (ix1 c)) W₃ (fun c => b₃ (ix1 c)) := by
  rw [matmul_eq_mm D₁ hD₁, matmul_eq_mm D₂ hD₂, matmul_eq_mm D₃ hD₃,
    broadcastTo_eq_rows _ t₁, broadcastTo_eq_rows _ t₂, broadcastTo_eq_rows _ t₃]
  simp only [truncf_eq, maximumf_splat_zero, addf_eq_plus, shapeCast_vecRow_apply]
  rfl

end Cert.Perceptron

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.EdgeBlocks.lean ====
/-
  The edge stage's region, read as one array. The region walks the 4,194,304 edges in 512 blocks of 8,192 rows: at
  block `t` its body joins rows `8192 t … 8192 t + 8191` of the two gathered sender arrays side by side, applies the
  three-layer perceptron with the whole weight arrays, and writes the 8,192 result rows back to the same rows of the
  message array. The perceptron acts row by row, so the block's result is rows `8192 t …` of the perceptron of the
  WHOLE joined array; the 512 blocks tile the message array, which therefore ends as that one function of the arrays
  the region finds — whatever those are (`V` below is any contents of the buffers at the region's entry).
-/
import proofs.«161232_j57629871178420_2_alg».proof.Proof.Gen.KernelIdeal.Frame
import proofs.«161232_j57629871178420_2_alg».proof.Proof.LibPerceptron
import proofs.«161232_j57629871178420_2_alg».proof.Proof.LibRows
import Idealize.ShloMosaic.Lib.Pipeline.Value

noncomputable section

open Idealize.ShloMosaic Idealize.ShloMosaic.TcCoe Idealize.SL.Sem
open Idealize.ShloMosaic.Pipeline (Dat)

namespace Cert.EdgeStage

open Cert.KernelIdeal Cert.KernelIdeal.Gen Idealize.ShloMosaic.ValueIdx Cert.Perceptron Cert.RowsLib

theorem hz2 : (![0, 0] : Fin 2 → Nat) = fun _ => 0 := funext fun a => by fin_cases a <;> rfl
theorem hz1 : (![0] : Fin 1 → Nat) = fun _ => 0 := funext fun a => by fin_cases a; rfl

theorem dot1 : dot_S8192x20_S20x64_S8192x64_1_0_0_1_n_n = DotDims.plain 8192 20 64 := rfl
theorem dot2 : dot_S8192x64_S64x32_S8192x32_1_0_0_1_n_n = DotDims.plain 8192 64 32 := rfl
theorem dot3 : dot_S8192x32_S32x20_S8192x20_1_0_0_1_n_n = DotDims.plain 8192 32 20 := rfl

/-- The two gathered arrays laid side by side, one row per edge. -/
theorem joins : Shape.Concatenates [S4194304x4, S4194304x16] S4194304x20 (1 : Fin 2) := by decide

/-- THE MESSAGES as one function of the arrays the region finds: the perceptron of the joined sender features. -/
def messages (Lg : FVec Ideal S4194304x4 .f32) (Hg : FVec Ideal S4194304x16 .f32)
    (w1 : FVec Ideal S20x64 .f32) (b1 : FVec Ideal S64 .f32) (w2 : FVec Ideal S64x32 .f32) (b2 : FVec Ideal S32 .f32)
    (w3 : FVec Ideal S32x20 .f32) (b3 : FVec Ideal S20 .f32) : FVec Ideal S4194304x20 .f32 :=
  mlp3 (concatenate S4194304x20 1 [⟨S4194304x4, Lg⟩, ⟨S4194304x16, Hg⟩] joins) w1 (fun c => b1 (ix1 c)) w2 (fun c => b2 (ix1 c))
    w3 (fun c => b3 (ix1 c))

/-- The body's one stored value is the perceptron of its two loaded blocks joined side by side. -/
theorem payload_eq (lg : FVec Ideal S8192x4 .f32) (hg : FVec Ideal S8192x16 .f32)
    (w1 : FVec Ideal S20x64 .f32) (b1 : FVec Ideal S64 .f32) (w2 : FVec Ideal S64x32 .f32) (b2 : FVec Ideal S32 .f32)
    (w3 : FVec Ideal S32x20 .f32) (b3 : FVec Ideal S20 .f32) :
    k0_pay1 (F := Ideal) lg hg w1 b1 w2 b2 w3 b3
      = mlp3 (concatenate S8192x20 1 [⟨S8192x4, lg⟩, ⟨S8192x16, hg⟩] concatenates_S8192x4_S8192x16_S8192x20_d1)
          w1 (fun c => b1 (ix1 c)) w2 (fun c => b2 (ix1 c)) w3 (fun c => b3 (ix1 c)) := by
  unfold k0_pay1
  rw [shapeCast_self lg, shapeCast_self hg]
  exact mlp3_vector bitsLt_bf16_f32 _ dot1 _ dot2 _ dot3 _ _ _ _ _ _ _ _ _ _ _ _ _

/-- AT ONE BLOCK: if the two loaded blocks are rows `8192 t …` of the gathered arrays, the body's value at `j` is the
    messages at row `8192 t + j 0`, column `j 1`. -/
theorem point_eq (Lg : FVec Ideal S4194304x4 .f32) (Hg : FVec Ideal S4194304x16 .f32)
    (w1 : FVec Ideal S20x64 .f32) (b1 : FVec Ideal S64 .f32) (w2 : FVec Ideal S64x32 .f32) (b2 : FVec Ideal S32 .f32)
    (w3 : FVec Ideal S32x20 .f32) (b3 : FVec Ideal S20 .f32)
    (lg : FVec Ideal S8192x4 .f32) (hg : FVec Ideal S8192x16 .f32) (t : ℕ)
    (hlg : ∀ (r : Fin 8192) (k : Fin 4) (p : Fin 4194304), p.val = t * 8192 + r.val → lg (ix2 r k) = Lg (ix2 p k))
    (hhg : ∀ (r : Fin 8192) (k : Fin 16) (p : Fin 4194304), p.val = t * 8192 + r.val → hg (ix2 r k) = Hg (ix2 p k))
    (j : S8192x20.Idx) (i : S4194304x20.Idx) (hi0 : (i 0).val = t * 8192 + (j 0).val) (hi1 : (i 1).val = (j 1).val) :
    k0_pay1 (F := Ideal) lg hg w1 b1 w2 b2 w3 b3 j = messages Lg Hg w1 b1 w2 b2 w3 b3 i := by
  rw [payload_eq]
  unfold messages
  refine mlp3_eq_of_row _ _ _ _ _ _ _ _ j i hi1.symm fun k => ?_
  by_cases hk : k.val < 4
  · rw [concat_cols_left lg hg _ (j 0) ⟨k.val, hk⟩ k rfl, concat_cols_left Lg Hg _ (i 0) ⟨k.val, hk⟩ k rfl]
    exact hlg (j 0) ⟨k.val, hk⟩ (i 0) hi0
  · have hk' : k.val - 4 < 16 := by have := k.isLt; omega
    have e : k.val = 4 + (k.val - 4) := by omega
    rw [concat_cols_right lg hg _ (j 0) ⟨k.val - 4, hk'⟩ k e, concat_cols_right Lg Hg _ (i 0) ⟨k.val - 4, hk'⟩ k e]
    exact hhg (j 0) ⟨k.val - 4, hk'⟩ (i 0) hi0

variable (V : (c : Dev nD) → (b : Ref sig .tc) → Buf (Elt Ideal) ((c : Thread nD τ).loc b))

/-- The printed index maps over the grid: the row-blocked windows sit at block `t` of their arrays, the weights and
    biases at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

/-- Block `t` of the gathered logits is rows `8192 t …` of the array. -/
theorem lg_block (c : Dev nD) (t : Fin cfg0.N) (r : Fin 8192) (k : Fin 4) (p : Fin 4194304) (hp : p.val = t.val * 8192 + r.val) :
    (iblk0 V c 0 t : FVec Ideal S8192x4 .f32) (ix2 r k) = (V c main_v6 : FVec Ideal S4194304x4 .f32) (ix2 p k) := by
  obtain ⟨e0, e1, -⟩ := idx_facts t
  unfold iblk0
  rw [View.read_apply]
  show V c main_v6 _ = V c main_v6 _
  congr 1
  funext a
  apply Fin.ext
  match a with
  | ⟨0, _⟩ => show win0_0.index t 0 * 8192 + 1 * r.val = p.val; rw [e0, hp]; omega
  | ⟨1, _⟩ => show win0_0.index t 1 * 4 + 1 * k.val = k.val; rw [e1]; omega

/-- Block `t` of the gathered hidden features is rows `8192 t …` of the array. -/
theorem hg_block (c : Dev nD) (t : Fin cfg0.N) (r : Fin 8192) (k : Fin 16) (p : Fin 4194304) (hp : p.val = t.val * 8192 + r.val) :
    (iblk0 V c 1 t : FVec Ideal S8192x16 .f32) (ix2 r k) = (V c main_v13 : FVec Ideal S4194304x16 .f32) (ix2 p k) := by
  obtain ⟨-, -, e0, e1, -⟩ := idx_facts t
  unfold iblk0
  rw [View.read_apply]
  show V c main_v13 _ = V c main_v13 _
  congr 1
  funext a
  apply Fin.ext
  match a with
  | ⟨0, _⟩ => show win0_1.index t 0 * 8192 + 1 * r.val = p.val; rw [e0, hp]; omega
  | ⟨1, _⟩ => show win0_1.index t 1 * 16 + 1 * k.val = k.val; rw [e1]; omega

/-- The one block of each weight matrix and bias vector is the whole array. -/
theorem w1_block (c : Dev nD) (t : Fin cfg0.N) : (iblk0 V c 2 t : FVec Ideal S20x64 .f32) = V c main_arg4 := by
  obtain ⟨-, -, -, -, e0, e1, -⟩ := idx_facts t
  funext y
  unfold iblk0
  rw [View.read_apply]
  show V c main_arg4 _ = V c main_arg4 y
  congr 1
  funext a
  apply Fin.ext
  match a with
  | ⟨0, _⟩ => show win0_2.index t 0 * 20 + 1 * (y 0).val = (y 0).val; rw [e0]; omega
  | ⟨1, _⟩ => show win0_2.index t 1 * 64 + 1 * (y 1).val = (y 1).val; rw [e1]; omega

theorem b1_block (c : Dev nD) (t : Fin cfg0.N) : (iblk0 V c 3 t : FVec Ideal S64 .f32) = V c main_arg5 := by
  obtain ⟨-, -, -, -, -, -, e0, -⟩ := idx_facts t
  funext y
  unfold iblk0
  rw [View.read_apply]
  show V c main_arg5 _ = V c main_arg5 y
  congr 1
  funext a
  apply Fin.ext
  match a with
  | ⟨0, _⟩ => show win0_3.index t 0 * 64 + 1 * (y 0).val = (y 0).val; rw [e0]; omega

theorem w2_block (c : Dev nD) (t : Fin cfg0.N) : (iblk0 V c 4 t : FVec Ideal S64x32 .f32) = V c main_arg6 := by
  obtain ⟨-, -, -, -, -, -, -, e0, e1, -⟩ := idx_facts t
  funext y
  unfold iblk0
  rw [View.read_apply]
  show V c main_arg6 _ = V c main_arg6 y
  congr 1
  funext a
  apply Fin.ext
  match a with
  | ⟨0, _⟩ => show win0_4.index t 0 * 64 + 1 * (y 0).val = (y 0).val; rw [e0]; omega
  | ⟨1, _⟩ => show win0_4.index t 1 * 32 + 1 * (y 1).val = (y 1).val; rw [e1]; omega

theorem b2_block (c : Dev nD) (t : Fin cfg0.N) : (iblk0 V c 5 t : FVec Ideal S32 .f32) = V c main_arg7 := by
  obtain ⟨-, -, -, -, -, -, -, -, -, e0, -⟩ := idx_facts t
  funext y
  unfold iblk0
  rw [View.read_apply]
  show V c main_arg7 _ = V c main_arg7 y
  congr 1
  funext a
  apply Fin.ext
  match a with
  | ⟨0, _⟩ => show win0_5.index t 0 * 32 + 1 * (y 0).val = (y 0).val; rw [e0]; omega

theorem w3_block (c : Dev nD) (t : Fin cfg0.N) : (iblk0 V c 6 t : FVec Ideal S32x20 .f32) = V c main_arg8 := by
  obtain ⟨-, -, -, -, -, -, -, -, -, -, e0, e1, -⟩ := idx_facts t
  funext y
  unfold iblk0
  rw [View.read_apply]
  show V c main_arg8 _ = V c main_arg8 y
  congr 1
  funext a
  apply Fin.ext
  match a with
  | ⟨0, _⟩ => show win0_6.index t 0 * 32 + 1 * (y 0).val = (y 0).val; rw [e0]; omega
  | ⟨1, _⟩ => show win0_6.index t 1 * 20 + 1 * (y 1).val = (y 1).val; rw [e1]; omega

theorem b3_block (c : Dev nD) (t : Fin cfg0.N) : (iblk0 V c 7 t : FVec Ideal S20 .f32) = V c main_arg9 := by
  obtain ⟨-, -, -, -, -, -, -, -, -, -, -, -, e0, -⟩ := idx_facts t
  funext y
  unfold iblk0
  rw [View.read_apply]
  show V c main_arg9 _ = V c main_arg9 y
  congr 1
  funext a
  apply Fin.ext
  match a with
  | ⟨0, _⟩ => show win0_7.index t 0 * 20 + 1 * (y 0).val = (y 0).val; rw [e0]; omega

/-- The messages of the arrays the region finds. -/
abbrev found (c : Dev nD) : FVec Ideal S4194304x20 .f32 :=
  messages (V c main_v6) (V c main_v13) (V c main_arg4) (V c main_arg5) (V c main_arg6) (V c main_arg7) (V c main_arg8) (V c main_arg9)

/-- WHAT BLOCK `t` WRITES BACK is block `t` of the messages. -/
theorem flushed_eq (c : Dev nD) (t : Fin cfg0.N) :
    (dat0 V c).flushed 8 t = ((cfg0.win 8).blk t).view.read (Elt Ideal) (found V c) := by
  show (cfg0.win 8).cut (grid0.coords t) ((dat0 V c).after 8 t) = _
  rw [after0_8]
  unfold out0_8
  rw [View.canon_unit_zero hz2]
  simp only [View.ld_unit_zero (S := S8192x4) hz2, View.ld_unit_zero (S := S8192x16) hz2, View.ld_unit_zero (S := S20x64) hz2,
    View.ld_unit_zero (S := S64) hz1, View.ld_unit_zero (S := S64x32) hz2, View.ld_unit_zero (S := S32) hz1,
    View.ld_unit_zero (S := S32x20) hz2, View.ld_unit_zero (S := S20) hz1]
  rw [w1_block V c t, b1_block V c t, w2_block V c t, b2_block V c t, w3_block V c t, b3_block V c t]
  obtain ⟨-, -, -, -, -, -, -, -, -, -, -, -, -, e0, e1⟩ := idx_facts t
  funext j
  show k0_pay1 (F := Ideal) (iblk0 V c 0 t) (iblk0 V c 1 t) (V c main_arg4) (V c main_arg5) (V c main_arg6) (V c main_arg7)
      (V c main_arg8) (V c main_arg9) j = found V c (((cfg0.win 8).blk t).view.emb j)
  refine point_eq _ _ _ _ _ _ _ _ _ _ t.val (lg_block V c t) (hg_block V c t) j _ ?_ ?_
  · show win0_8.index t 0 * 8192 + 1 * (j 0).val = t.val * 8192 + (j 0).val
    rw [e0]; omega
  · show win0_8.index t 1 * 20 + 1 * (j 1).val = (j 1).val
    rw [e1]; omega

/-- A row of the message array is in block `t` iff it lies in that block's rows. -/
theorem mem_blk (t : Fin cfg0.N) (i : S4194304x20.Idx) :
    i ∈ ((cfg0.win 8).blk t).view.set ↔ ∀ a : Fin 2, win0_8.index t a * S8192x20.size a ≤ (i a).val
      ∧ (i a).val < win0_8.index t a * S8192x20.size a + S8192x20.size a := by
  show i ∈ ((View.whole main_v14).slice (win0_8.rect t)).set ↔ _
  rw [View.set_slice_whole, Rect.mem_set_unit]
  exact Iff.rfl

/-- THE MESSAGE ARRAY after the region: the messages of the arrays it found. Row `r` is written by block `r / 8192`. -/
theorem final (c : Dev nD) : (dat0 V c).arrAt 8 cfg0.N = found V c :=
  (dat0 V c).arrAt_eq_of_cover 8 (found V c) (fun t _ => flushed_eq V c t) fun i => by
    have hi0 : (i 0).val < 4194304 := (i 0).isLt
    have hi1 : (i 1).val < 20 := (i 1).isLt
    have hN : cfg0.N = 512 := N_0
    have ht : (i 0).val / 8192 < cfg0.N := by rw [hN]; omega
    obtain ⟨-, -, -, -, -, -, -, -, -, -, -, -, -, e0, e1⟩ := idx_facts ⟨(i 0).val / 8192, ht⟩
    refine ⟨⟨(i 0).val / 8192, ht⟩, flush0_8 _, ?_⟩
    rw [mem_blk]
    intro a
    match a with
    | ⟨0, _⟩ =>
      show win0_8.index ⟨(i 0).val / 8192, ht⟩ 0 * 8192 ≤ (i 0).val ∧ (i 0).val < win0_8.index ⟨(i 0).val / 8192, ht⟩ 0 * 8192 + 8192
      rw [e0]; show (i 0).val / 8192 * 8192 ≤ (i 0).val ∧ (i 0).val < (i 0).val / 8192 * 8192 + 8192; omega
    | ⟨1, _⟩ =>
      show win0_8.index ⟨(i 0).val / 8192, ht⟩ 1 * 20 ≤ (i 1).val ∧ (i 1).val < win0_8.index ⟨(i 0).val / 8192, ht⟩ 1 * 20 + 20
      rw [e1]; omega

end Cert.EdgeStage

end
-- ==== Proof.LibFused.lean ====
/-
  General lemmas: arrays laid side by side (rank-two arrays joined along their columns) or end to end (vectors joined
  into one longer vector) by a concatenation, read at an index. The column, or position, `pre + q` of the joined array —
  `pre` the total extent of the pieces before piece `k` — is column, or position, `q` of piece `k`. None mentions a program.
-/
import proofs.«161232_j57629871178420_2_alg».proof.Proof.LibIndex

noncomputable section

namespace Cert.FusedLib

open Idealize.ShloMosaic Idealize.ShloMosaic.ValueIdx

variable {α : Type}

/-- Rank-two arrays joined along their columns into a `[K, N]` array: at `(p, c)`, where `c = pre + q` and `pre` is
    the total width of the pieces before piece `k`, a `[K, n]` array `x`, the joined array reads `x` at `(p, q)`. -/
theorem concatenate_cols_apply {K n N : ℕ} (xs : List ((s : Shape) × (s.Idx → α)))
    (h : Shape.Concatenates (xs.map (·.1)) ⟨2, ![K, N]⟩ (1 : Fin 2)) (k : ℕ) (hk : k < xs.length)
    (x : (⟨2, ![K, n]⟩ : Shape).Idx → α) (hxk : xs[k] = ⟨⟨2, ![K, n]⟩, x⟩) (pre : ℕ)
    (hpre : (((xs.take k).map (·.1)).map fun s : Shape =>
      if h : s.rank = (⟨2, ![K, N]⟩ : Shape).rank then s.size ((1 : Fin 2).cast h.symm) else 0).sum = pre)
    (p : Fin K) (q : Fin n) (c : Fin N) (hc : c.val = pre + q.val) :
    concatenate ⟨2, ![K, N]⟩ (1 : Fin 2) xs h (ix2 p c) = x (ix2 p q) :=
  concatenate_apply_piece (t := ⟨2, ![K, N]⟩) (1 : Fin 2) xs h (ix2 p c) k hk ⟨2, ![K, n]⟩ x hxk rfl pre hpre (ix2 p q)
    (fun b hb => by
      match b with
      | ⟨0, _⟩ => rfl
      | ⟨1, _⟩ => exact absurd (Fin.ext rfl) hb)
    (by show pre + q.val = c.val; omega)

/-- Vectors joined end to end into a vector of length `N`: at position `c = pre + q`, `pre` the total length of the
    pieces before piece `k`, a vector `x` of length `n`, the joined vector reads `x` at `q`. -/
theorem concatenate_vec_apply {n N : ℕ} (xs : List ((s : Shape) × (s.Idx → α)))
    (h : Shape.Concatenates (xs.map (·.1)) ⟨1, ![N]⟩ (0 : Fin 1)) (k : ℕ) (hk : k < xs.length)
    (x : (⟨1, ![n]⟩ : Shape).Idx → α) (hxk : xs[k] = ⟨⟨1, ![n]⟩, x⟩) (pre : ℕ)
    (hpre : (((xs.take k).map (·.1)).map fun s : Shape =>
      if h : s.rank = (⟨1, ![N]⟩ : Shape).rank then s.size ((0 : Fin 1).cast h.symm) else 0).sum = pre)
    (q : Fin n) (c : Fin N) (hc : c.val = pre + q.val) :
    concatenate ⟨1, ![N]⟩ (0 : Fin 1) xs h (ix1 c) = x (ix1 q) :=
  concatenate_apply_piece (t := ⟨1, ![N]⟩) (0 : Fin 1) xs h (ix1 c) k hk ⟨1, ![n]⟩ x hxk rfl pre hpre (ix1 q)
    (fun b hb => by
      match b with
      | ⟨0, _⟩ => exact absurd (Fin.ext rfl) hb)
    (by show pre + q.val = c.val; omega)

end Cert.FusedLib

end
-- ==== Proof.NodeBlocks.lean ====
/-
  The node stage's region, read as two arrays. The region walks the 262,144 nodes in 64 blocks of 4,096 rows: at block
  `t` its body joins rows `4096 t … 4096 t + 4095` of the logits, the hidden features and the aggregated messages side
  by side, applies the three-layer perceptron with the whole weight arrays, and writes the first four columns of the
  4,096 result rows back to the same rows of the first result array and the other sixteen to the second. The
  perceptron acts row by row, so each block is rows `4096 t …` of the matching column cut of the perceptron of the
  WHOLE joined array; the 64 blocks tile each result array, which therefore ends as that cut — whatever the arrays the
  region finds (`V` below is any contents of the buffers at the region's entry).
-/
import proofs.«161232_j57629871178420_2_alg».proof.Proof.Gen.KernelIdeal.Frame
import proofs.«161232_j57629871178420_2_alg».proof.Proof.LibPerceptron
import proofs.«161232_j57629871178420_2_alg».proof.Proof.LibFused
import Idealize.ShloMosaic.Lib.Pipeline.Value

noncomputable section

open Idealize.ShloMosaic Idealize.ShloMosaic.TcCoe Idealize.SL.Sem
open Idealize.ShloMosaic.Pipeline (Dat)

namespace Cert.NodeStage

open Cert.KernelIdeal Cert.KernelIdeal.Gen Idealize.ShloMosaic.ValueIdx Cert.Perceptron Cert.FusedLib

theorem hz2 : (![0, 0] : Fin 2 → Nat) = fun _ => 0 := funext fun a => by fin_cases a <;> rfl
theorem hz1 : (![0] : Fin 1 → Nat) = fun _ => 0 := funext fun a => by fin_cases a; rfl

theorem dot1 : dot_S4096x40_S40x64_S4096x64_1_0_0_1_n_n = DotDims.plain 4096 40 64 := rfl
theorem dot2 : dot_S4096x64_S64x32_S4096x32_1_0_0_1_n_n = DotDims.plain 4096 64 32 := rfl
theorem dot3 : dot_S4096x32_S32x20_S4096x20_1_0_0_1_n_n = DotDims.plain 4096 32 20 := rfl

/-- The logits, the hidden features and the aggregate laid side by side, one row per node. -/
abbrev S262144x40 : Shape := ⟨2, ![262144, 40]⟩
theorem joins : Shape.Concatenates [S262144x4, S262144x16, S262144x20] S262144x40 (1 : Fin 2) := by decide
/-- The first four columns, and the other sixteen. -/
theorem cutLogits : S262144x20.Slices ![0, 0] S262144x4 := by decide
theorem cutHidden : S262144x20.Slices ![0, 4] S262144x16 := by decide

/-- Three arrays of widths 4, 16 and 20 laid side by side: a row of the joined array is determined by the same row of
    each piece, at any heights. -/
theorem join3_row {M M' : ℕ} (a' : (⟨2, ![M', 4]⟩ : Shape).Idx → EReal) (b' : (⟨2, ![M', 16]⟩ : Shape).Idx → EReal)
    (d' : (⟨2, ![M', 20]⟩ : Shape).Idx → EReal) (a : (⟨2, ![M, 4]⟩ : Shape).Idx → EReal) (b : (⟨2, ![M, 16]⟩ : Shape).Idx → EReal)
    (d : (⟨2, ![M, 20]⟩ : Shape).Idx → EReal)
    (h' : Shape.Concatenates [(⟨2, ![M', 4]⟩ : Shape), ⟨2, ![M', 16]⟩, ⟨2, ![M', 20]⟩] ⟨2, ![M', 40]⟩ (1 : Fin 2))
    (h : Shape.Concatenates [(⟨2, ![M, 4]⟩ : Shape), ⟨2, ![M, 16]⟩, ⟨2, ![M, 20]⟩] ⟨2, ![M, 40]⟩ (1 : Fin 2))
    (p' : Fin M') (p : Fin M)
    (ha : ∀ k : Fin 4, a' (ix2 p' k) = a (ix2 p k)) (hb : ∀ k : Fin 16, b' (ix2 p' k) = b (ix2 p k))
    (hd : ∀ k : Fin 20, d' (ix2 p' k) = d (ix2 p k)) (k : Fin 40) :
    concatenate ⟨2, ![M', 40]⟩ (1 : Fin 2) [⟨⟨2, ![M', 4]⟩, a'⟩, ⟨⟨2, ![M', 16]⟩, b'⟩, ⟨⟨2, ![M', 20]⟩, d'⟩] h' (ix2 p' k)
      = concatenate ⟨2, ![M, 40]⟩ (1 : Fin 2) [⟨⟨2, ![M, 4]⟩, a⟩, ⟨⟨2, ![M, 16]⟩, b⟩, ⟨⟨2, ![M, 20]⟩, d⟩] h (ix2 p k) := by
  by_cases h4 : k.val < 4
  · rw [concatenate_cols_apply [⟨⟨2, ![M', 4]⟩, a'⟩, ⟨⟨2, ![M', 16]⟩, b'⟩, ⟨⟨2, ![M', 20]⟩, d'⟩] h' 0 (by show (0 : ℕ) < 3; omega) a' rfl 0 rfl p' ⟨k.val, h4⟩ k (by show k.val = 0 + k.val; omega),
      concatenate_cols_apply [⟨⟨2, ![M, 4]⟩, a⟩, ⟨⟨2, ![M, 16]⟩, b⟩, ⟨⟨2, ![M, 20]⟩, d⟩] h 0 (by show (0 : ℕ) < 3; omega) a rfl 0 rfl p ⟨k.val, h4⟩ k (by show k.val = 0 + k.val; omega)]
    exact ha _
  · by_cases h20 : k.val < 20
    · have hq : k.val - 4 < 16 := by omega
      have e : k.val = 4 + (k.val - 4) := by omega
      rw [concatenate_cols_apply [⟨⟨2, ![M', 4]⟩, a'⟩, ⟨⟨2, ![M', 16]⟩, b'⟩, ⟨⟨2, ![M', 20]⟩, d'⟩] h' 1 (by show (1 : ℕ) < 3; omega) b' rfl 4 rfl p' ⟨k.val - 4, hq⟩ k e,
        concatenate_cols_apply [⟨⟨2, ![M, 4]⟩, a⟩, ⟨⟨2, ![M, 16]⟩, b⟩, ⟨⟨2, ![M, 20]⟩, d⟩] h 1 (by show (1 : ℕ) < 3; omega) b rfl 4 rfl p ⟨k.val - 4, hq⟩ k e]
      exact hb _
    · have hq : k.val - 20 < 20 := by have := k.isLt; omega
      have e : k.val = 20 + (k.val - 20) := by omega
      rw [concatenate_cols_apply [⟨⟨2, ![M', 4]⟩, a'⟩, ⟨⟨2, ![M', 16]⟩, b'⟩, ⟨⟨2, ![M', 20]⟩, d'⟩] h' 2 (by show (2 : ℕ) < 3; omega) d' rfl 20 rfl p' ⟨k.val - 20, hq⟩ k e,
        concatenate_cols_apply [⟨⟨2, ![M, 4]⟩, a⟩, ⟨⟨2, ![M, 16]⟩, b⟩, ⟨⟨2, ![M, 20]⟩, d⟩] h 2 (by show (2 : ℕ) < 3; omega) d rfl 20 rfl p ⟨k.val - 20, hq⟩ k e]
      exact hd _

/-- THE UPDATED FEATURES before the column cuts, as one function of the arrays the region finds: the perceptron of the
    nodes' features joined with the aggregate. -/
def updated (L : FVec Ideal S262144x4 .f32) (H : FVec Ideal S262144x16 .f32) (Ag : FVec Ideal S262144x20 .f32)
    (w1 : FVec Ideal S40x64 .f32) (b1 : FVec Ideal S64 .f32) (w2 : FVec Ideal S64x32 .f32) (b2 : FVec Ideal S32 .f32)
    (w3 : FVec Ideal S32x20 .f32) (b3 : FVec Ideal S20 .f32) : FVec Ideal S262144x20 .f32 :=
  mlp3 (concatenate S262144x40 1 [⟨S262144x4, L⟩, ⟨S262144x16, H⟩, ⟨S262144x20, Ag⟩] joins) w1 (fun c => b1 (ix1 c))
    w2 (fun c => b2 (ix1 c)) w3 (fun c => b3 (ix1 c))

/-- The value both stores cut from: the perceptron of the three loaded blocks joined side by side. -/
theorem payload_eq (a : FVec Ideal S4096x4 .f32) (b : FVec Ideal S4096x16 .f32) (d : FVec Ideal S4096x20 .f32)
    (w1 : FVec Ideal S40x64 .f32) (b1 : FVec Ideal S64 .f32) (w2 : FVec Ideal S64x32 .f32) (b2 : FVec Ideal S32 .f32)
    (w3 : FVec Ideal S32x20 .f32) (b3 : FVec Ideal S20 .f32) :
    k1_pay1 (F := Ideal) a b d w1 b1 w2 b2 w3 b3
      = mlp3 (concatenate S4096x40 1 [⟨S4096x4, a⟩, ⟨S4096x16, b⟩, ⟨S4096x20, d⟩] concatenates_S4096x4_S4096x16_S4096x20_S4096x40_d1)
          w1 (fun c => b1 (ix1 c)) w2 (fun c => b2 (ix1 c)) w3 (fun c => b3 (ix1 c)) := by
  unfold k1_pay1
  rw [shapeCast_self d]
  exact mlp3_vector bitsLt_bf16_f32 _ dot1 _ dot2 _ dot3 _ _ _ _ _ _ _ _ _ _ _ _ _

/-- AT ONE BLOCK: if the three loaded blocks are rows `4096 t …` of their arrays, the body's value at `j` is the updated
    features at row `4096 t + j 0`, column `j 1`. -/
theorem point_eq (L : FVec Ideal S262144x4 .f32) (H : FVec Ideal S262144x16 .f32) (Ag : FVec Ideal S262144x20 .f32)
    (w1 : FVec Ideal S40x64 .f32) (b1 : FVec Ideal S64 .f32) (w2 : FVec Ideal S64x32 .f32) (b2 : FVec Ideal S32 .f32)
    (w3 : FVec Ideal S32x20 .f32) (b3 : FVec Ideal S20 .f32)
    (a : FVec Ideal S4096x4 .f32) (b : FVec Ideal S4096x16 .f32) (d : FVec Ideal S4096x20 .f32) (t : ℕ)
    (ha : ∀ (r : Fin 4096) (k : Fin 4) (p : Fin 262144), p.val = t * 4096 + r.val → a (ix2 r k) = L (ix2 p k))
    (hb : ∀ (r : Fin 4096) (k : Fin 16) (p : Fin 262144), p.val = t * 4096 + r.val → b (ix2 r k) = H (ix2 p k))
    (hd : ∀ (r : Fin 4096) (k : Fin 20) (p : Fin 262144), p.val = t * 4096 + r.val → d (ix2 r k) = Ag (ix2 p k))
    (j : S4096x20.Idx) (i : S262144x20.Idx) (hi0 : (i 0).val = t * 4096 + (j 0).val) (hi1 : (i 1).val = (j 1).val) :
    k1_pay1 (F := Ideal) a b d w1 b1 w2 b2 w3 b3 j = updated L H Ag w1 b1 w2 b2 w3 b3 i := by
  rw [payload_eq]
  unfold updated
  refine mlp3_eq_of_row _ _ _ _ _ _ _ _ j i hi1.symm fun k => ?_
  exact join3_row a b d L H Ag _ _ (j 0) (i 0) (fun k => ha (j 0) k (i 0) hi0) (fun k => hb (j 0) k (i 0) hi0)
    (fun k => hd (j 0) k (i 0) hi0) k

/-- The first store's value at `j`: the first four columns of the updated features, at row `4096 t + j 0`. -/
theorem logits_point (L : FVec Ideal S262144x4 .f32) (H : FVec Ideal S262144x16 .f32) (Ag : FVec Ideal S262144x20 .f32)
    (w1 : FVec Ideal S40x64 .f32) (b1 : FVec Ideal S64 .f32) (w2 : FVec Ideal S64x32 .f32) (b2 : FVec Ideal S32 .f32)
    (w3 : FVec Ideal S32x20 .f32) (b3 : FVec Ideal S20 .f32)
    (a : FVec Ideal S4096x4 .f32) (b : FVec Ideal S4096x16 .f32) (d : FVec Ideal S4096x20 .f32) (t : ℕ)
    (ha : ∀ (r : Fin 4096) (k : Fin 4) (p : Fin 262144), p.val = t * 4096 + r.val → a (ix2 r k) = L (ix2 p k))
    (hb : ∀ (r : Fin 4096) (k : Fin 16) (p : Fin 262144), p.val = t * 4096 + r.val → b (ix2 r k) = H (ix2 p k))
    (hd : ∀ (r : Fin 4096) (k : Fin 20) (p : Fin 262144), p.val = t * 4096 + r.val → d (ix2 r k) = Ag (ix2 p k))
    (j : S4096x4.Idx) (i : S262144x4.Idx) (hi0 : (i 0).val = t * 4096 + (j 0).val) (hi1 : (i 1).val = (j 1).val) :
    k1_pay2 (F := Ideal) a b d w1 b1 w2 b2 w3 b3 j
      = extractStridedSlice S262144x4 ![0, 0] (updated L H Ag w1 b1 w2 b2 w3 b3) cutLogits i := by
  have hj1 : (j 1).val < 4 := (j 1).isLt
  have hi1' : (i 1).val < 4 := (i 1).isLt
  show extractStridedSlice S4096x4 ![0, 0] (k1_pay1 (F := Ideal) a b d w1 b1 w2 b2 w3 b3) slices_S4096x20_o0_0_S4096x4 j = _
  rw [extractStridedSlice_apply ![0, 0] _ slices_S4096x20_o0_0_S4096x4 j (ix2 (n0 := 4096) (j 0) (⟨(j 1).val, by omega⟩ : Fin 20))
      (fun ax => by
        match ax with
        | ⟨0, _⟩ => show (j 0).val = 0 + (j 0).val; omega
        | ⟨1, _⟩ => show (j 1).val = 0 + (j 1).val; omega),
    extractStridedSlice_apply ![0, 0] _ cutLogits i (ix2 (n0 := 262144) (i 0) (⟨(i 1).val, by omega⟩ : Fin 20))
      (fun ax => by
        match ax with
        | ⟨0, _⟩ => show (i 0).val = 0 + (i 0).val; omega
        | ⟨1, _⟩ => show (i 1).val = 0 + (i 1).val; omega)]
  exact point_eq L H Ag w1 b1 w2 b2 w3 b3 a b d t ha hb hd _ _ hi0 hi1

/-- The second store's value at `j`: the other sixteen columns of the updated features, at row `4096 t + j 0`. -/
theorem hidden_point (L : FVec Ideal S262144x4 .f32) (H : FVec Ideal S262144x16 .f32) (Ag : FVec Ideal S262144x20 .f32)
    (w1 : FVec Ideal S40x64 .f32) (b1 : FVec Ideal S64 .f32) (w2 : FVec Ideal S64x32 .f32) (b2 : FVec Ideal S32 .f32)
    (w3 : FVec Ideal S32x20 .f32) (b3 : FVec Ideal S20 .f32)
    (a : FVec Ideal S4096x4 .f32) (b : FVec Ideal S4096x16 .f32) (d : FVec Ideal S4096x20 .f32) (t : ℕ)
    (ha : ∀ (r : Fin 4096) (k : Fin 4) (p : Fin 262144), p.val = t * 4096 + r.val → a (ix2 r k) = L (ix2 p k))
    (hb : ∀ (r : Fin 4096) (k : Fin 16) (p : Fin 262144), p.val = t * 4096 + r.val → b (ix2 r k) = H (ix2 p k))
    (hd : ∀ (r : Fin 4096) (k : Fin 20) (p : Fin 262144), p.val = t * 4096 + r.val → d (ix2 r k) = Ag (ix2 p k))
    (j : S4096x16.Idx) (i : S262144x16.Idx) (hi0 : (i 0).val = t * 4096 + (j 0).val) (hi1 : (i 1).val = (j 1).val) :
    k1_pay3 (F := Ideal) a b d w1 b1 w2 b2 w3 b3 j
      = extractStridedSlice S262144x16 ![0, 4] (updated L H Ag w1 b1 w2 b2 w3 b3) cutHidden i := by
  have hj1 : (j 1).val < 16 := (j 1).isLt
  have hi1' : (i 1).val < 16 := (i 1).isLt
  show extractStridedSlice S4096x16 ![0, 4] (k1_pay1 (F := Ideal) a b d w1 b1 w2 b2 w3 b3) slices_S4096x20_o0_4_S4096x16 j = _
  rw [extractStridedSlice_apply ![0, 4] _ slices_S4096x20_o0_4_S4096x16 j (ix2 (n0 := 4096) (j 0) (⟨4 + (j 1).val, by omega⟩ : Fin 20))
      (fun ax => by
        match ax with
        | ⟨0, _⟩ => show (j 0).val = 0 + (j 0).val; omega
        | ⟨1, _⟩ => show 4 + (j 1).val = 4 + (j 1).val; rfl),
    extractStridedSlice_apply ![0, 4] _ cutHidden i (ix2 (n0 := 262144) (i 0) (⟨4 + (i 1).val, by omega⟩ : Fin 20))
      (fun ax => by
        match ax with
        | ⟨0, _⟩ => show (i 0).val = 0 + (i 0).val; omega
        | ⟨1, _⟩ => show 4 + (i 1).val = 4 + (i 1).val; rfl)]
  exact point_eq L H Ag w1 b1 w2 b2 w3 b3 a b d t ha hb hd _ _ hi0 (by show 4 + (i 1).val = 4 + (j 1).val; omega)

variable (V : (c : Dev nD) → (b : Ref sig .tc) → Buf (Elt Ideal) ((c : Thread nD τ).loc b))

/-- The printed index maps over the grid: the row-blocked windows sit at block `t` of their arrays, the weights and
    biases at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0
    ∧ win1_10.index t (0 : Fin 2) = t.val ∧ win1_10.index t (1 : Fin 2) = 0 :=
  (by decide +kernel : ∀ t : Fin grid1.N, _)

/-- Block `t` of the logits is rows `4096 t …` of the array. -/
theorem logits_block (c : Dev nD) (t : Fin cfg1.N) (r : Fin 4096) (k : Fin 4) (p : Fin 262144) (hp : p.val = t.val * 4096 + r.val) :
    (iblk1 V c 0 t : FVec Ideal S4096x4 .f32) (ix2 r k) = (V c main_arg0 : FVec Ideal S262144x4 .f32) (ix2 p k) := by
  obtain ⟨e0, e1, -⟩ := idx_facts t
  unfold iblk1
  rw [View.read_apply]
  show V c main_arg0 _ = V c main_arg0 _
  congr 1
  funext a
  apply Fin.ext
  match a with
  | ⟨0, _⟩ => show win1_0.index t 0 * 4096 + 1 * r.val = p.val; rw [e0, hp]; omega
  | ⟨1, _⟩ => show win1_0.index t 1 * 4 + 1 * k.val = k.val; rw [e1]; omega

/-- Block `t` of the hidden features is rows `4096 t …` of the array. -/
theorem hidden_block (c : Dev nD) (t : Fin cfg1.N) (r : Fin 4096) (k : Fin 16) (p : Fin 262144) (hp : p.val = t.val * 4096 + r.val) :
    (iblk1 V c 1 t : FVec Ideal S4096x16 .f32) (ix2 r k) = (V c main_arg1 : FVec Ideal S262144x16 .f32) (ix2 p k) := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t 0 * 4096 + 1 * r.val = p.val; rw [e0, hp]; omega
  | ⟨1, _⟩ => show win1_1.index t 1 * 16 + 1 * k.val = k.val; rw [e1]; omega

/-- Block `t` of the aggregate is rows `4096 t …` of the array. -/
theorem agg_block (c : Dev nD) (t : Fin cfg1.N) (r : Fin 4096) (k : Fin 20) (p : Fin 262144) (hp : p.val = t.val * 4096 + r.val) :
    (iblk1 V c 2 t : FVec Ideal S4096x20 .f32) (ix2 r k) = (V c main_v17 : FVec Ideal S262144x20 .f32) (ix2 p k) := by
  obtain ⟨-, -, -, -, e0, e1, -⟩ := idx_facts t
  unfold iblk1
  rw [View.read_apply]
  show V c main_v17 _ = V c main_v17 _
  congr 1
  funext a
  apply Fin.ext
  match a with
  | ⟨0, _⟩ => show win1_2.index t 0 * 4096 + 1 * r.val = p.val; rw [e0, hp]; omega
  | ⟨1, _⟩ => show win1_2.index t 1 * 20 + 1 * k.val = k.val; rw [e1]; omega

/-- The one block of each weight matrix and bias vector is the whole array. -/
theorem w1_block (c : Dev nD) (t : Fin cfg1.N) : (iblk1 V c 3 t : FVec Ideal S40x64 .f32) = V c main_arg10 := by
  obtain ⟨-, -, -, -, -, -, e0, e1, -⟩ := idx_facts t
  funext y
  unfold iblk1
  rw [View.read_apply]
  show V c main_arg10 _ = V c main_arg10 y
  congr 1
  funext a
  apply Fin.ext
  match a with
  | ⟨0, _⟩ => show win1_3.index t 0 * 40 + 1 * (y 0).val = (y 0).val; rw [e0]; omega
  | ⟨1, _⟩ => show win1_3.index t 1 * 64 + 1 * (y 1).val = (y 1).val; rw [e1]; omega

theorem b1_block (c : Dev nD) (t : Fin cfg1.N) : (iblk1 V c 4 t : FVec Ideal S64 .f32) = V c main_arg11 := by
  obtain ⟨-, -, -, -, -, -, -, -, e0, -⟩ := idx_facts t
  funext y
  unfold iblk1
  rw [View.read_apply]
  show V c main_arg11 _ = V c main_arg11 y
  congr 1
  funext a
  apply Fin.ext
  match a with
  | ⟨0, _⟩ => show win1_4.index t 0 * 64 + 1 * (y 0).val = (y 0).val; rw [e0]; omega

theorem w2_block (c : Dev nD) (t : Fin cfg1.N) : (iblk1 V c 5 t : FVec Ideal S64x32 .f32) = V c main_arg12 := by
  obtain ⟨-, -, -, -, -, -, -, -, -, e0, e1, -⟩ := idx_facts t
  funext y
  unfold iblk1
  rw [View.read_apply]
  show V c main_arg12 _ = V c main_arg12 y
  congr 1
  funext a
  apply Fin.ext
  match a with
  | ⟨0, _⟩ => show win1_5.index t 0 * 64 + 1 * (y 0).val = (y 0).val; rw [e0]; omega
  | ⟨1, _⟩ => show win1_5.index t 1 * 32 + 1 * (y 1).val = (y 1).val; rw [e1]; omega

theorem b2_block (c : Dev nD) (t : Fin cfg1.N) : (iblk1 V c 6 t : FVec Ideal S32 .f32) = V c main_arg13 := by
  obtain ⟨-, -, -, -, -, -, -, -, -, -, -, e0, -⟩ := idx_facts t
  funext y
  unfold iblk1
  rw [View.read_apply]
  show V c main_arg13 _ = V c main_arg13 y
  congr 1
  funext a
  apply Fin.ext
  match a with
  | ⟨0, _⟩ => show win1_6.index t 0 * 32 + 1 * (y 0).val = (y 0).val; rw [e0]; omega

theorem w3_block (c : Dev nD) (t : Fin cfg1.N) : (iblk1 V c 7 t : FVec Ideal S32x20 .f32) = V c main_arg14 := by
  obtain ⟨-, -, -, -, -, -, -, -, -, -, -, -, e0, e1, -⟩ := idx_facts t
  funext y
  unfold iblk1
  rw [View.read_apply]
  show V c main_arg14 _ = V c main_arg14 y
  congr 1
  funext a
  apply Fin.ext
  match a with
  | ⟨0, _⟩ => show win1_7.index t 0 * 32 + 1 * (y 0).val = (y 0).val; rw [e0]; omega
  | ⟨1, _⟩ => show win1_7.index t 1 * 20 + 1 * (y 1).val = (y 1).val; rw [e1]; omega

theorem b3_block (c : Dev nD) (t : Fin cfg1.N) : (iblk1 V c 8 t : FVec Ideal S20 .f32) = V c main_arg15 := by
  obtain ⟨-, -, -, -, -, -, -, -, -, -, -, -, -, -, e0, -⟩ := idx_facts t
  funext y
  unfold iblk1
  rw [View.read_apply]
  show V c main_arg15 _ = V c main_arg15 y
  congr 1
  funext a
  apply Fin.ext
  match a with
  | ⟨0, _⟩ => show win1_8.index t 0 * 20 + 1 * (y 0).val = (y 0).val; rw [e0]; omega

/-- The updated features of the arrays the region finds. -/
abbrev found (c : Dev nD) : FVec Ideal S262144x20 .f32 :=
  updated (V c main_arg0) (V c main_arg1) (V c main_v17) (V c main_arg10) (V c main_arg11) (V c main_arg12) (V c main_arg13)
    (V c main_arg14) (V c main_arg15)

/-- WHAT BLOCK `t` WRITES BACK to the first result is block `t` of the first four columns. -/
theorem flushed_logits (c : Dev nD) (t : Fin cfg1.N) :
    (dat1 V c).flushed 9 t = ((cfg1.win 9).blk t).view.read (Elt Ideal)
      (extractStridedSlice S262144x4 ![0, 0] (found V c) cutLogits) := by
  show (cfg1.win 9).cut (grid1.coords t) ((dat1 V c).after 9 t) = _
  rw [after1_9]
  unfold out1_9
  rw [View.canon_unit_zero hz2]
  simp only [View.ld_unit_zero (S := S4096x4) hz2, View.ld_unit_zero (S := S4096x16) hz2, View.ld_unit_zero (S := S4096x20) hz2,
    View.ld_unit_zero (S := S40x64) hz2, View.ld_unit_zero (S := S64) hz1, View.ld_unit_zero (S := S64x32) hz2,
    View.ld_unit_zero (S := S32) hz1, View.ld_unit_zero (S := S32x20) hz2, View.ld_unit_zero (S := S20) hz1]
  rw [w1_block V c t, b1_block V c t, w2_block V c t, b2_block V c t, w3_block V c t, b3_block V c t]
  obtain ⟨-, -, -, -, -, -, -, -, -, -, -, -, -, -, -, e0, e1, -⟩ := idx_facts t
  funext j
  show k1_pay2 (F := Ideal) (iblk1 V c 0 t) (iblk1 V c 1 t) (iblk1 V c 2 t) (V c main_arg10) (V c main_arg11) (V c main_arg12)
      (V c main_arg13) (V c main_arg14) (V c main_arg15) j
    = extractStridedSlice S262144x4 ![0, 0] (found V c) cutLogits (((cfg1.win 9).blk t).view.emb j)
  refine logits_point _ _ _ _ _ _ _ _ _ _ _ _ t.val (logits_block V c t) (hidden_block V c t) (agg_block V c t) j _ ?_ ?_
  · show win1_9.index t 0 * 4096 + 1 * (j 0).val = t.val * 4096 + (j 0).val
    rw [e0]; omega
  · show win1_9.index t 1 * 4 + 1 * (j 1).val = (j 1).val
    rw [e1]; omega

/-- WHAT BLOCK `t` WRITES BACK to the second result is block `t` of the other sixteen columns. -/
theorem flushed_hidden (c : Dev nD) (t : Fin cfg1.N) :
    (dat1 V c).flushed 10 t = ((cfg1.win 10).blk t).view.read (Elt Ideal)
      (extractStridedSlice S262144x16 ![0, 4] (found V c) cutHidden) := by
  show (cfg1.win 10).cut (grid1.coords t) ((dat1 V c).after 10 t) = _
  rw [after1_10]
  unfold out1_10
  rw [View.canon_unit_zero hz2]
  simp only [View.ld_unit_zero (S := S4096x4) hz2, View.ld_unit_zero (S := S4096x16) hz2, View.ld_unit_zero (S := S4096x20) hz2,
    View.ld_unit_zero (S := S40x64) hz2, View.ld_unit_zero (S := S64) hz1, View.ld_unit_zero (S := S64x32) hz2,
    View.ld_unit_zero (S := S32) hz1, View.ld_unit_zero (S := S32x20) hz2, View.ld_unit_zero (S := S20) hz1]
  rw [w1_block V c t, b1_block V c t, w2_block V c t, b2_block V c t, w3_block V c t, b3_block V c t]
  obtain ⟨-, -, -, -, -, -, -, -, -, -, -, -, -, -, -, -, -, e0, e1⟩ := idx_facts t
  funext j
  show k1_pay3 (F := Ideal) (iblk1 V c 0 t) (iblk1 V c 1 t) (iblk1 V c 2 t) (V c main_arg10) (V c main_arg11) (V c main_arg12)
      (V c main_arg13) (V c main_arg14) (V c main_arg15) j
    = extractStridedSlice S262144x16 ![0, 4] (found V c) cutHidden (((cfg1.win 10).blk t).view.emb j)
  refine hidden_point _ _ _ _ _ _ _ _ _ _ _ _ t.val (logits_block V c t) (hidden_block V c t) (agg_block V c t) j _ ?_ ?_
  · show win1_10.index t 0 * 4096 + 1 * (j 0).val = t.val * 4096 + (j 0).val
    rw [e0]; omega
  · show win1_10.index t 1 * 16 + 1 * (j 1).val = (j 1).val
    rw [e1]; omega

/-- A row of a result array is in block `t` iff it lies in that block's rows. -/
theorem mem_blk_logits (t : Fin cfg1.N) (i : S262144x4.Idx) :
    i ∈ ((cfg1.win 9).blk t).view.set ↔ ∀ a : Fin 2, win1_9.index t a * S4096x4.size a ≤ (i a).val
      ∧ (i a).val < win1_9.index t a * S4096x4.size a + S4096x4.size a := by
  show i ∈ ((View.whole main_v18_0).slice (win1_9.rect t)).set ↔ _
  rw [View.set_slice_whole, Rect.mem_set_unit]
  exact Iff.rfl

theorem mem_blk_hidden (t : Fin cfg1.N) (i : S262144x16.Idx) :
    i ∈ ((cfg1.win 10).blk t).view.set ↔ ∀ a : Fin 2, win1_10.index t a * S4096x16.size a ≤ (i a).val
      ∧ (i a).val < win1_10.index t a * S4096x16.size a + S4096x16.size a := by
  show i ∈ ((View.whole main_v18_1).slice (win1_10.rect t)).set ↔ _
  rw [View.set_slice_whole, Rect.mem_set_unit]
  exact Iff.rfl

/-- THE FIRST RESULT after the region: the first four columns of the updated features. Row `r` is written by block `r / 4096`. -/
theorem final_logits (c : Dev nD) :
    (dat1 V c).arrAt 9 cfg1.N = extractStridedSlice S262144x4 ![0, 0] (found V c) cutLogits :=
  (dat1 V c).arrAt_eq_of_cover 9 _ (fun t _ => flushed_logits V c t) fun i => by
    have hi0 : (i 0).val < 262144 := (i 0).isLt
    have hi1 : (i 1).val < 4 := (i 1).isLt
    have hN : cfg1.N = 64 := N_1
    have ht : (i 0).val / 4096 < cfg1.N := by rw [hN]; omega
    obtain ⟨-, -, -, -, -, -, -, -, -, -, -, -, -, -, -, e0, e1, -⟩ := idx_facts ⟨(i 0).val / 4096, ht⟩
    refine ⟨⟨(i 0).val / 4096, ht⟩, flush1_9 _, ?_⟩
    rw [mem_blk_logits]
    intro a
    match a with
    | ⟨0, _⟩ =>
      show win1_9.index ⟨(i 0).val / 4096, ht⟩ 0 * 4096 ≤ (i 0).val ∧ (i 0).val < win1_9.index ⟨(i 0).val / 4096, ht⟩ 0 * 4096 + 4096
      rw [e0]; show (i 0).val / 4096 * 4096 ≤ (i 0).val ∧ (i 0).val < (i 0).val / 4096 * 4096 + 4096; omega
    | ⟨1, _⟩ =>
      show win1_9.index ⟨(i 0).val / 4096, ht⟩ 1 * 4 ≤ (i 1).val ∧ (i 1).val < win1_9.index ⟨(i 0).val / 4096, ht⟩ 1 * 4 + 4
      rw [e1]; omega

/-- THE SECOND RESULT after the region: the other sixteen columns of the updated features. -/
theorem final_hidden (c : Dev nD) :
    (dat1 V c).arrAt 10 cfg1.N = extractStridedSlice S262144x16 ![0, 4] (found V c) cutHidden :=
  (dat1 V c).arrAt_eq_of_cover 10 _ (fun t _ => flushed_hidden V c t) fun i => by
    have hi0 : (i 0).val < 262144 := (i 0).isLt
    have hi1 : (i 1).val < 16 := (i 1).isLt
    have hN : cfg1.N = 64 := N_1
    have ht : (i 0).val / 4096 < cfg1.N := by rw [hN]; omega
    obtain ⟨-, -, -, -, -, -, -, -, -, -, -, -, -, -, -, -, -, e0, e1⟩ := idx_facts ⟨(i 0).val / 4096, ht⟩
    refine ⟨⟨(i 0).val / 4096, ht⟩, flush1_10 _, ?_⟩
    rw [mem_blk_hidden]
    intro a
    match a with
    | ⟨0, _⟩ =>
      show win1_10.index ⟨(i 0).val / 4096, ht⟩ 0 * 4096 ≤ (i 0).val ∧ (i 0).val < win1_10.index ⟨(i 0).val / 4096, ht⟩ 0 * 4096 + 4096
      rw [e0]; show (i 0).val / 4096 * 4096 ≤ (i 0).val ∧ (i 0).val < (i 0).val / 4096 * 4096 + 4096; omega
    | ⟨1, _⟩ =>
      show win1_10.index ⟨(i 0).val / 4096, ht⟩ 1 * 16 ≤ (i 1).val ∧ (i 1).val < win1_10.index ⟨(i 0).val / 4096, ht⟩ 1 * 16 + 16
      rw [e1]; omega

end Cert.NodeStage

end
-- ==== Proof.RefStages.lean ====
/-
  The reference's two dense stages read as perceptrons of the rows they are applied to. The messages — the reference's
  edge stage, three general dots with broadcast biases and two cuts at zero over the gathered sender features laid side
  by side — are `mlp3` of that joined array, one row per edge; the node stage before its two column cuts is `mlp3` of
  the nodes' features joined with the aggregated messages, one row per node. Both by the host's spelling of the
  perceptron; nothing here reads the gathers or the scatter, which stay the operations the program names.
-/
import proofs.«161232_j57629871178420_2_alg».proof.Proof.Gen.ReferenceIdeal.Read
import proofs.«161232_j57629871178420_2_alg».proof.Proof.LibPerceptron

noncomputable section

namespace Cert.Stages

open Idealize.ShloMosaic Idealize.ShloMosaic.ValueIdx Cert.ReferenceIdeal Cert.ReferenceIdeal.Gen Cert.ReferenceIdeal.Read
open Cert.Perceptron

theorem edge_dot1 : dot_S4194304x20_S20x64_S4194304x64_1_0_0_1_n_n = DotDims.plain 4194304 20 64 := rfl
theorem edge_dot2 : dot_S4194304x64_S64x32_S4194304x32_1_0_0_1_n_n = DotDims.plain 4194304 64 32 := rfl
theorem edge_dot3 : dot_S4194304x32_S32x20_S4194304x20_1_0_0_1_n_n = DotDims.plain 4194304 32 20 := rfl
theorem node_dot1 : dot_S262144x40_S40x64_S262144x64_1_0_0_1_n_n = DotDims.plain 262144 40 64 := rfl
theorem node_dot2 : dot_S262144x64_S64x32_S262144x32_1_0_0_1_n_n = DotDims.plain 262144 64 32 := rfl
theorem node_dot3 : dot_S262144x32_S32x20_S262144x20_1_0_0_1_n_n = DotDims.plain 262144 32 20 := rfl

/-- THE MESSAGES: the reference's edge stage is the perceptron of the joined sender features, row by row. -/
theorem messages_eq (x0 : FVec Ideal S262144x4 .f32) (x1 : FVec Ideal S262144x16 .f32) (x2 : IVec S4194304 32)
    (x4 : FVec Ideal S20x64 .f32) (x5 : FVec Ideal S64 .f32) (x6 : FVec Ideal S64x32 .f32) (x7 : FVec Ideal S32 .f32)
    (x8 : FVec Ideal S32x20 .f32) (x9 : FVec Ideal S20 .f32) :
    val_main_v28 (F := Ideal) x0 x1 x2 x4 x5 x6 x7 x8 x9
      = mlp3 (val_main_v14 (F := Ideal) x0 x1 x2) x4 (fun c => x5 (ix1 c)) x6 (fun c => x7 (ix1 c)) x8 (fun c => x9 (ix1 c)) := by
  unfold val_main_v28 val_main_v25 val_main_v24 val_main_v23 val_main_v20 val_main_v19 val_main_v18 val_main_v15
    val_main_v27 val_main_v26 val_main_v22 val_main_v21 val_main_v17 val_main_v16
    val_main_call0_v0 val_main_call0_cst val_main_call1_v0 val_main_call1_cst
  exact mlp3_host _ edge_dot1 _ edge_dot2 _ edge_dot3 _ _ _ _ _ _ _ _ _ _ _ _ _ _ _

/-- THE NODE STAGE before its column cuts: the perceptron of the nodes' features joined with the aggregate, row by row. -/
theorem nodes_eq (x0 : FVec Ideal S262144x4 .f32) (x1 : FVec Ideal S262144x16 .f32) (x2 x3 : IVec S4194304 32)
    (x4 : FVec Ideal S20x64 .f32) (x5 : FVec Ideal S64 .f32) (x6 : FVec Ideal S64x32 .f32) (x7 : FVec Ideal S32 .f32)
    (x8 : FVec Ideal S32x20 .f32) (x9 : FVec Ideal S20 .f32)
    (x10 : FVec Ideal S40x64 .f32) (x11 : FVec Ideal S64 .f32) (x12 : FVec Ideal S64x32 .f32) (x13 : FVec Ideal S32 .f32)
    (x14 : FVec Ideal S32x20 .f32) (x15 : FVec Ideal S20 .f32) :
    val_main_v46 (F := Ideal) x0 x1 x2 x3 x4 x5 x6 x7 x8 x9 x10 x11 x12 x13 x14 x15
      = mlp3 (val_main_v32 (F := Ideal) x0 x1 x2 x3 x4 x5 x6 x7 x8 x9) x10 (fun c => x11 (ix1 c)) x12 (fun c => x13 (ix1 c))
          x14 (fun c => x15 (ix1 c)) := by
  unfold val_main_v46 val_main_v43 val_main_v42 val_main_v41 val_main_v38 val_main_v37 val_main_v36 val_main_v33
    val_main_v45 val_main_v44 val_main_v40 val_main_v39 val_main_v35 val_main_v34
    val_main_call2_v0 val_main_call2_cst val_main_call3_v0 val_main_call3_cst
  exact mlp3_host _ node_dot1 _ node_dot2 _ node_dot3 _ _ _ _ _ _ _ _ _ _ _ _ _ _ _

end Cert.Stages

end
-- ==== Proof.KernelRun.lean ====
/-
  The two-region program's run, read at every buffer that outlives a region. The program is four segments — the host
  operations before the edge stage, the edge stage's region, the host operations between the two regions, the node
  stage's region — and the buffer contents at the four boundaries are a fold through them from the launch memory
  (each host stretch applies its operations, each region leaves its arrays at what its write-backs folded). Every weakly
  fair execution terminates, nothing faulting, and every unscoped buffer of every core ends at the contents of the LAST
  boundary: in particular the two result arrays, which the value proof then reads back through the fold.
-/
import proofs.«161232_j57629871178420_2_alg».proof.Proof.Gen.KernelIdeal.Frame

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN, READ AT THE LAST BOUNDARY: from any memory with zero counters every weakly fair execution of the program
    terminates, nothing faulting, and every unscoped buffer `b` of every core ends holding the last boundary's
    contents of `b`. -/
theorem run_boundary : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    -- the program is the run of its four segments
    (fun c Q => by rw [main_run m ρ c])
    -- each pipeline is entered once
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    -- the launch deals the staging cells' ghost state and nothing else
    (hu₀ := by
      iintro Hu
      imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    -- the thread states: every unscoped buffer at a boundary's contents, the generator register, nothing owed
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    -- the first thread state, from what the launch deals each core
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hprng, -⟩, -⟩
      imodintro
      isplitl [Hheld]; · iexact Hheld
      isplitl [Hprng]; · iexists _; iexact Hprng
      iexists ∅; iexact Howes)
    -- the last thread state read against a final state: every unscoped buffer at the last boundary's contents
    (QY := fun c s => ∀ b ∈ Pipeline.ucRefs τ sig, s.mem (((c : Thread nD τ)).1, b) = W4 m ρ c b)
    (hfin := fun c s' => by
      iintro ⟨⟨Hheld, -⟩, HSI⟩
      unfold StableHlo.held
      imodintro
      iapply (pointsTo_read_all (Pipeline.ucRefs τ sig) (fun b => (((c : Thread nD τ)).1, b)) (W4 m ρ c) s')
      isplitl [Hheld] <;> iassumption)
    (hQ := fun s h c b hb => h c _ (mem_uc b hb))

end Cert.KernelRun

end
-- ==== Proof.KernelValue.lean ====
/-
  The kernel's two result arrays as functions of the launch memory. Reading the last boundary's contents back through
  the four segments: the node stage's region leaves the two column cuts of the perceptron of (logits | hidden | aggregate)
  over the arrays it finds; of those the logits, the hidden features and the node weights are still the arguments, and the
  aggregate is the host's accumulating scatter, from zero, of what the edge stage's region left at the receivers; the edge
  stage's region leaves the perceptron of the two gathered arrays joined, which the host operations before it computed
  from the arguments by the very gathers the reference names. Term by term this is the reference's own chain of stages,
  with each dense stage read as the perceptron of its rows: the two programs compute one function of the arguments.
-/
import proofs.«161232_j57629871178420_2_alg».proof.Proof.EdgeBlocks
import proofs.«161232_j57629871178420_2_alg».proof.Proof.NodeBlocks
import proofs.«161232_j57629871178420_2_alg».proof.Proof.RefStages
import proofs.«161232_j57629871178420_2_alg».proof.Proof.KernelRun

noncomputable section

namespace Cert.KernelValue

open Cert.KernelIdeal Cert.KernelIdeal.Gen
open Idealize.ShloMosaic Idealize.ShloMosaic.TcCoe Idealize.SL.Sem Idealize.ShloMosaic.StableHlo
open Cert.ReferenceIdeal.Read (val_main_v6 val_main_v13 val_main_v14 val_main_v28 val_main_v29 val_main_v30 val_main_v31 val_main_v32
  val_main_v46 val_main_v47 val_main_v48)

/-- THE AGGREGATE: the host's accumulating scatter of the messages at the receivers, from the zero array. -/
def aggregate (recv : IVec S4194304 32) (M : FVec Ideal S4194304x20 .f32) : FVec Ideal S262144x20 .f32 :=
  Host.scatterAdd scatter_S262144x20_S4194304x1_S4194304x20_1_0_0_1
    (broadcastInDim S262144x20 ![] bcast_S_S262144x20 (constant (F := Ideal) S_ .f32 0x00000000#32))
    (broadcastInDim S4194304x1 ![0] bcast_S4194304_S4194304x1_0 recv) M

/-- The kernel's chain of stages, with each dense stage read as the perceptron of its rows, is the reference's: the
    updated features before the column cuts. -/
theorem updated_eq (x0 : FVec Ideal S262144x4 .f32) (x1 : FVec Ideal S262144x16 .f32) (x2 : IVec S4194304 32) (x3 : IVec S4194304 32) (x4 : FVec Ideal S20x64 .f32) (x5 : FVec Ideal S64 .f32) (x6 : FVec Ideal S64x32 .f32) (x7 : FVec Ideal S32 .f32) (x8 : FVec Ideal S32x20 .f32) (x9 : FVec Ideal S20 .f32) (x10 : FVec Ideal S40x64 .f32) (x11 : FVec Ideal S64 .f32) (x12 : FVec Ideal S64x32 .f32) (x13 : FVec Ideal S32 .f32) (x14 : FVec Ideal S32x20 .f32) (x15 : FVec Ideal S20 .f32) :
    NodeStage.updated x0 x1 (aggregate x3 (EdgeStage.messages (val_main_v6 (F := Ideal) x0 x2) (val_main_v13 (F := Ideal) x1 x2) x4 x5 x6 x7 x8 x9)) x10 x11 x12 x13 x14 x15
      = val_main_v46 (F := Ideal) x0 x1 x2 x3 x4 x5 x6 x7 x8 x9 x10 x11 x12 x13 x14 x15 := by
  rw [Stages.nodes_eq]
  unfold val_main_v32 val_main_v31
  rw [Stages.messages_eq]
  rfl

/-- THE FIRST RESULT: the kernel's chain cut to its first four columns is the reference's first result. -/
theorem bridge_logits (x0 : FVec Ideal S262144x4 .f32) (x1 : FVec Ideal S262144x16 .f32) (x2 : IVec S4194304 32) (x3 : IVec S4194304 32) (x4 : FVec Ideal S20x64 .f32) (x5 : FVec Ideal S64 .f32) (x6 : FVec Ideal S64x32 .f32) (x7 : FVec Ideal S32 .f32) (x8 : FVec Ideal S32x20 .f32) (x9 : FVec Ideal S20 .f32) (x10 : FVec Ideal S40x64 .f32) (x11 : FVec Ideal S64 .f32) (x12 : FVec Ideal S64x32 .f32) (x13 : FVec Ideal S32 .f32) (x14 : FVec Ideal S32x20 .f32) (x15 : FVec Ideal S20 .f32) :
    extractStridedSlice S262144x4 ![0, 0]
        (NodeStage.updated x0 x1 (aggregate x3 (EdgeStage.messages (val_main_v6 (F := Ideal) x0 x2) (val_main_v13 (F := Ideal) x1 x2) x4 x5 x6 x7 x8 x9)) x10 x11 x12 x13 x14 x15) NodeStage.cutLogits
      = val_main_v47 (F := Ideal) x0 x1 x2 x3 x4 x5 x6 x7 x8 x9 x10 x11 x12 x13 x14 x15 := by
  rw [updated_eq]
  rfl

/-- THE SECOND RESULT: the kernel's chain cut to its other sixteen columns is the reference's second result. -/
theorem bridge_hidden (x0 : FVec Ideal S262144x4 .f32) (x1 : FVec Ideal S262144x16 .f32) (x2 : IVec S4194304 32) (x3 : IVec S4194304 32) (x4 : FVec Ideal S20x64 .f32) (x5 : FVec Ideal S64 .f32) (x6 : FVec Ideal S64x32 .f32) (x7 : FVec Ideal S32 .f32) (x8 : FVec Ideal S32x20 .f32) (x9 : FVec Ideal S20 .f32) (x10 : FVec Ideal S40x64 .f32) (x11 : FVec Ideal S64 .f32) (x12 : FVec Ideal S64x32 .f32) (x13 : FVec Ideal S32 .f32) (x14 : FVec Ideal S32x20 .f32) (x15 : FVec Ideal S20 .f32) :
    extractStridedSlice S262144x16 ![0, 4]
        (NodeStage.updated x0 x1 (aggregate x3 (EdgeStage.messages (val_main_v6 (F := Ideal) x0 x2) (val_main_v13 (F := Ideal) x1 x2) x4 x5 x6 x7 x8 x9)) x10 x11 x12 x13 x14 x15) NodeStage.cutHidden
      = val_main_v48 (F := Ideal) x0 x1 x2 x3 x4 x5 x6 x7 x8 x9 x10 x11 x12 x13 x14 x15 := by
  rw [updated_eq]
  rfl

variable (m : (ℓ : Loc nD τ sig) → Buf (Elt Ideal) ℓ) (ρ : Dev nD → PrngReg)

/-- The argument arrays at launch, on core `c`. -/
abbrev x0 (c : Dev nD) : FVec Ideal S262144x4 .f32 := m ((c : Thread nD τ).loc main_arg0)
abbrev x1 (c : Dev nD) : FVec Ideal S262144x16 .f32 := m ((c : Thread nD τ).loc main_arg1)
abbrev x2 (c : Dev nD) : IVec S4194304 32 := m ((c : Thread nD τ).loc main_arg2)
abbrev x3 (c : Dev nD) : IVec S4194304 32 := m ((c : Thread nD τ).loc main_arg3)
abbrev x4 (c : Dev nD) : FVec Ideal S20x64 .f32 := m ((c : Thread nD τ).loc main_arg4)
abbrev x5 (c : Dev nD) : FVec Ideal S64 .f32 := m ((c : Thread nD τ).loc main_arg5)
abbrev x6 (c : Dev nD) : FVec Ideal S64x32 .f32 := m ((c : Thread nD τ).loc main_arg6)
abbrev x7 (c : Dev nD) : FVec Ideal S32 .f32 := m ((c : Thread nD τ).loc main_arg7)
abbrev x8 (c : Dev nD) : FVec Ideal S32x20 .f32 := m ((c : Thread nD τ).loc main_arg8)
abbrev x9 (c : Dev nD) : FVec Ideal S20 .f32 := m ((c : Thread nD τ).loc main_arg9)
abbrev x10 (c : Dev nD) : FVec Ideal S40x64 .f32 := m ((c : Thread nD τ).loc main_arg10)
abbrev x11 (c : Dev nD) : FVec Ideal S64 .f32 := m ((c : Thread nD τ).loc main_arg11)
abbrev x12 (c : Dev nD) : FVec Ideal S64x32 .f32 := m ((c : Thread nD τ).loc main_arg12)
abbrev x13 (c : Dev nD) : FVec Ideal S32 .f32 := m ((c : Thread nD τ).loc main_arg13)
abbrev x14 (c : Dev nD) : FVec Ideal S32x20 .f32 := m ((c : Thread nD τ).loc main_arg14)
abbrev x15 (c : Dev nD) : FVec Ideal S20 .f32 := m ((c : Thread nD τ).loc main_arg15)

/-! ## What the edge stage's region finds: the two gathers of the arguments, and the edge weights -/

theorem entry0_logits (c : Dev nD) : V1 m ρ c main_v6 = val_main_v6 (F := Ideal) (x0 m c) (x2 m c) := by
  show StableHlo.after hostOps0 (W0 m ρ c) (Proc.devRef .tc main_v6) = _
  after_results
  rfl
theorem entry0_hidden (c : Dev nD) : V1 m ρ c main_v13 = val_main_v13 (F := Ideal) (x1 m c) (x2 m c) := by
  show StableHlo.after hostOps0 (W0 m ρ c) (Proc.devRef .tc main_v13) = _
  after_results
  rfl
theorem entry0_x4 (c : Dev nD) : V1 m ρ c main_arg4 = x4 m c := by
  show StableHlo.after hostOps0 (W0 m ρ c) (Proc.devRef .tc main_arg4) = _
  after_results
theorem entry0_x5 (c : Dev nD) : V1 m ρ c main_arg5 = x5 m c := by
  show StableHlo.after hostOps0 (W0 m ρ c) (Proc.devRef .tc main_arg5) = _
  after_results
theorem entry0_x6 (c : Dev nD) : V1 m ρ c main_arg6 = x6 m c := by
  show StableHlo.after hostOps0 (W0 m ρ c) (Proc.devRef .tc main_arg6) = _
  after_results
theorem entry0_x7 (c : Dev nD) : V1 m ρ c main_arg7 = x7 m c := by
  show StableHlo.after hostOps0 (W0 m ρ c) (Proc.devRef .tc main_arg7) = _
  after_results
theorem entry0_x8 (c : Dev nD) : V1 m ρ c main_arg8 = x8 m c := by
  show StableHlo.after hostOps0 (W0 m ρ c) (Proc.devRef .tc main_arg8) = _
  after_results
theorem entry0_x9 (c : Dev nD) : V1 m ρ c main_arg9 = x9 m c := by
  show StableHlo.after hostOps0 (W0 m ρ c) (Proc.devRef .tc main_arg9) = _
  after_results

/-! ## What the edge stage's region leaves, and the receivers beside it -/

theorem mid_messages (c : Dev nD) :
    W2 m ρ c (Proc.devRef .tc main_v14) = EdgeStage.messages (val_main_v6 (F := Ideal) (x0 m c) (x2 m c)) (val_main_v13 (F := Ideal) (x1 m c) (x2 m c)) (x4 m c) (x5 m c) (x6 m c) (x7 m c) (x8 m c) (x9 m c) := by
  refine (W2_arr m ρ c 8).trans ?_
  rw [EdgeStage.final (V1 m ρ) c]
  show EdgeStage.messages (V1 m ρ c main_v6) (V1 m ρ c main_v13) (V1 m ρ c main_arg4) (V1 m ρ c main_arg5) (V1 m ρ c main_arg6)
    (V1 m ρ c main_arg7) (V1 m ρ c main_arg8) (V1 m ρ c main_arg9) = _
  rw [entry0_logits, entry0_hidden, entry0_x4, entry0_x5, entry0_x6, entry0_x7, entry0_x8, entry0_x9]

theorem mid_x3 (c : Dev nD) : W2 m ρ c (Proc.devRef .tc main_arg3) = x3 m c := by
  refine (W2_of_ne m ρ c main_arg3 (by decide)).trans ?_
  show StableHlo.after hostOps0 (W0 m ρ c) (Proc.devRef .tc main_arg3) = _
  after_results

/-! ## What the node stage's region finds: the arguments, and the aggregate of the messages -/

theorem entry1_x0 (c : Dev nD) : V3 m ρ c main_arg0 = x0 m c := by
  show StableHlo.after hostOps1 (W2 m ρ c) (Proc.devRef .tc main_arg0) = _
  after_results
  refine (W2_of_ne m ρ c main_arg0 (by decide)).trans ?_
  show StableHlo.after hostOps0 (W0 m ρ c) (Proc.devRef .tc main_arg0) = _
  after_results
theorem entry1_x1 (c : Dev nD) : V3 m ρ c main_arg1 = x1 m c := by
  show StableHlo.after hostOps1 (W2 m ρ c) (Proc.devRef .tc main_arg1) = _
  after_results
  refine (W2_of_ne m ρ c main_arg1 (by decide)).trans ?_
  show StableHlo.after hostOps0 (W0 m ρ c) (Proc.devRef .tc main_arg1) = _
  after_results
theorem entry1_x10 (c : Dev nD) : V3 m ρ c main_arg10 = x10 m c := by
  show StableHlo.after hostOps1 (W2 m ρ c) (Proc.devRef .tc main_arg10) = _
  after_results
  refine (W2_of_ne m ρ c main_arg10 (by decide)).trans ?_
  show StableHlo.after hostOps0 (W0 m ρ c) (Proc.devRef .tc main_arg10) = _
  after_results
theorem entry1_x11 (c : Dev nD) : V3 m ρ c main_arg11 = x11 m c := by
  show StableHlo.after hostOps1 (W2 m ρ c) (Proc.devRef .tc main_arg11) = _
  after_results
  refine (W2_of_ne m ρ c main_arg11 (by decide)).trans ?_
  show StableHlo.after hostOps0 (W0 m ρ c) (Proc.devRef .tc main_arg11) = _
  after_results
theorem entry1_x12 (c : Dev nD) : V3 m ρ c main_arg12 = x12 m c := by
  show StableHlo.after hostOps1 (W2 m ρ c) (Proc.devRef .tc main_arg12) = _
  after_results
  refine (W2_of_ne m ρ c main_arg12 (by decide)).trans ?_
  show StableHlo.after hostOps0 (W0 m ρ c) (Proc.devRef .tc main_arg12) = _
  after_results
theorem entry1_x13 (c : Dev nD) : V3 m ρ c main_arg13 = x13 m c := by
  show StableHlo.after hostOps1 (W2 m ρ c) (Proc.devRef .tc main_arg13) = _
  after_results
  refine (W2_of_ne m ρ c main_arg13 (by decide)).trans ?_
  show StableHlo.after hostOps0 (W0 m ρ c) (Proc.devRef .tc main_arg13) = _
  after_results
theorem entry1_x14 (c : Dev nD) : V3 m ρ c main_arg14 = x14 m c := by
  show StableHlo.after hostOps1 (W2 m ρ c) (Proc.devRef .tc main_arg14) = _
  after_results
  refine (W2_of_ne m ρ c main_arg14 (by decide)).trans ?_
  show StableHlo.after hostOps0 (W0 m ρ c) (Proc.devRef .tc main_arg14) = _
  after_results
theorem entry1_x15 (c : Dev nD) : V3 m ρ c main_arg15 = x15 m c := by
  show StableHlo.after hostOps1 (W2 m ρ c) (Proc.devRef .tc main_arg15) = _
  after_results
  refine (W2_of_ne m ρ c main_arg15 (by decide)).trans ?_
  show StableHlo.after hostOps0 (W0 m ρ c) (Proc.devRef .tc main_arg15) = _
  after_results

theorem entry1_agg (c : Dev nD) :
    V3 m ρ c main_v17 = aggregate (x3 m c) (EdgeStage.messages (val_main_v6 (F := Ideal) (x0 m c) (x2 m c)) (val_main_v13 (F := Ideal) (x1 m c) (x2 m c)) (x4 m c) (x5 m c) (x6 m c) (x7 m c) (x8 m c) (x9 m c)) := by
  show StableHlo.after hostOps1 (W2 m ρ c) (Proc.devRef .tc main_v17) = _
  after_results
  rw [mid_messages m ρ c, mid_x3 m ρ c]
  rfl

/-! ## The two result arrays at the last boundary -/

theorem result_logits (c : Dev nD) :
    W4 m ρ c (Proc.devRef .tc main_v18_0) = val_main_v47 (F := Ideal) (x0 m c) (x1 m c) (x2 m c) (x3 m c) (x4 m c) (x5 m c) (x6 m c) (x7 m c) (x8 m c) (x9 m c) (x10 m c) (x11 m c) (x12 m c) (x13 m c) (x14 m c) (x15 m c) := by
  refine (W4_arr m ρ c 9).trans ?_
  rw [NodeStage.final_logits (V3 m ρ) c]
  show extractStridedSlice S262144x4 ![0, 0] (NodeStage.updated (V3 m ρ c main_arg0) (V3 m ρ c main_arg1) (V3 m ρ c main_v17)
    (V3 m ρ c main_arg10) (V3 m ρ c main_arg11) (V3 m ρ c main_arg12) (V3 m ρ c main_arg13) (V3 m ρ c main_arg14)
    (V3 m ρ c main_arg15)) NodeStage.cutLogits = _
  rw [entry1_x0, entry1_x1, entry1_agg, entry1_x10, entry1_x11, entry1_x12, entry1_x13, entry1_x14, entry1_x15]
  exact bridge_logits _ _ _ _ _ _ _ _ _ _ _ _ _ _ _ _

theorem result_hidden (c : Dev nD) :
    W4 m ρ c (Proc.devRef .tc main_v18_1) = val_main_v48 (F := Ideal) (x0 m c) (x1 m c) (x2 m c) (x3 m c) (x4 m c) (x5 m c) (x6 m c) (x7 m c) (x8 m c) (x9 m c) (x10 m c) (x11 m c) (x12 m c) (x13 m c) (x14 m c) (x15 m c) := by
  refine (W4_arr m ρ c 10).trans ?_
  rw [NodeStage.final_hidden (V3 m ρ) c]
  show extractStridedSlice S262144x16 ![0, 4] (NodeStage.updated (V3 m ρ c main_arg0) (V3 m ρ c main_arg1) (V3 m ρ c main_v17)
    (V3 m ρ c main_arg10) (V3 m ρ c main_arg11) (V3 m ρ c main_arg12) (V3 m ρ c main_arg13) (V3 m ρ c main_arg14)
    (V3 m ρ c main_arg15)) NodeStage.cutHidden = _
  rw [entry1_x0, entry1_x1, entry1_agg, entry1_x10, entry1_x11, entry1_x12, entry1_x13, entry1_x14, entry1_x15]
  exact bridge_hidden _ _ _ _ _ _ _ _ _ _ _ _ _ _ _ _

/-- THE KERNEL'S RUN, READ: every weakly fair execution terminates with the two result arrays at the reference's two
    stages of the argument arrays, and the arguments unchanged. -/
theorem run : θ_run defs (onTc (τ := τ) (main (F := Ideal))) ⟨m, fun _ => 0, ρ⟩ (fun r => ∀ c : Dev nD,
      r.2.mem ((c.tc : Thread nD τ).loc main_v18_0) = val_main_v47 (F := Ideal) (x0 m c) (x1 m c) (x2 m c) (x3 m c) (x4 m c) (x5 m c) (x6 m c) (x7 m c) (x8 m c) (x9 m c) (x10 m c) (x11 m c) (x12 m c) (x13 m c) (x14 m c) (x15 m c)
      ∧ r.2.mem ((c.tc : Thread nD τ).loc main_v18_1) = val_main_v48 (F := Ideal) (x0 m c) (x1 m c) (x2 m c) (x3 m c) (x4 m c) (x5 m c) (x6 m c) (x7 m c) (x8 m c) (x9 m c) (x10 m c) (x11 m c) (x12 m c) (x13 m c) (x14 m c) (x15 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c =>
    ⟨(h c main_v18_0 (by decide)).trans (result_logits m ρ c),
     (h c main_v18_1 (by decide)).trans (result_hidden m ρ c),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c),
     (h c main_arg8 (by decide)).trans (W4_main_arg8 m ρ c),
     (h c main_arg9 (by decide)).trans (W4_main_arg9 m ρ c),
     (h c main_arg10 (by decide)).trans (W4_main_arg10 m ρ c),
     (h c main_arg11 (by decide)).trans (W4_main_arg11 m ρ c),
     (h c main_arg12 (by decide)).trans (W4_main_arg12 m ρ c),
     (h c main_arg13 (by decide)).trans (W4_main_arg13 m ρ c),
     (h c main_arg14 (by decide)).trans (W4_main_arg14 m ρ c),
     (h c main_arg15 (by decide)).trans (W4_main_arg15 m ρ c)⟩)
    (KernelRun.run_boundary m ρ)

end Cert.KernelValue

end
-- ==== Proof.lean ====
/-
  One round of message passing on a graph of 262,144 nodes and 4,194,304 edges, against its plain reference.
  Each edge gathers its sender's logits and hidden features, joins them into a row of 20 entries and passes the row through
  a perceptron of three dense layers (20 → 64 → 32 → 20, cut at zero after the first two); the messages are summed at
  their receivers; each node joins its own 20 features with the 20 aggregated ones and passes the row through a second
  perceptron (40 → 64 → 32 → 20), whose first four columns are the new logits and the other sixteen the new hidden features.
  The reference applies each perceptron to the whole array at once. The kernel's program keeps the two gathers and the
  accumulating scatter as the same host operations, and computes each perceptron in a region of its own, block by block:
  8,192 edges at a time, then 4,096 nodes at a time, the operands recast to a narrower float format on the way into
  each product.
  On the extended reals the recasts are the identity and a product accumulated into zero is the product. A perceptron
  acts row by row, so a block of rows of its result is the same function of that block of rows: the blocks a region
  writes back tile its result array, which ends as the perceptron of the whole array the region found. Reading the
  program's buffers back through its four segments to the launch memory, the two result arrays are the reference's own
  chain of stages of the arguments — the same gathers, the perceptron, the same scatter, the perceptron, the two column
  cuts. No law of arithmetic beyond reading each dense layer as one function of its rows joins the two sides, so the
  finiteness of the inputs is never used.
-/
import proofs.«161232_j57629871178420_2_alg».proof.Defs
import proofs.«161232_j57629871178420_2_alg».proof.Proof.Gen.Kernel
import proofs.«161232_j57629871178420_2_alg».proof.Proof.Gen.Kernel.Skeleton
import proofs.«161232_j57629871178420_2_alg».proof.Proof.Gen.Kernel.Launch
import proofs.«161232_j57629871178420_2_alg».proof.Proof.Gen.Kernel.Points
import proofs.«161232_j57629871178420_2_alg».proof.Proof.Gen.Kernel.Frame
import proofs.«161232_j57629871178420_2_alg».proof.Proof.Gen.KernelIdeal
import proofs.«161232_j57629871178420_2_alg».proof.Proof.Gen.KernelIdeal.Skeleton
import proofs.«161232_j57629871178420_2_alg».proof.Proof.Gen.KernelIdeal.Launch
import proofs.«161232_j57629871178420_2_alg».proof.Proof.Gen.KernelIdeal.Points
import proofs.«161232_j57629871178420_2_alg».proof.Proof.Gen.KernelIdeal.Frame
import proofs.«161232_j57629871178420_2_alg».proof.Proof.Gen.ReferenceIdeal
import proofs.«161232_j57629871178420_2_alg».proof.Proof.Gen.Pre_finite_inputs
import proofs.«161232_j57629871178420_2_alg».proof.Proof.Gen.ReferenceIdeal.Run
import proofs.«161232_j57629871178420_2_alg».proof.Proof.Gen.ReferenceIdeal.Read
import proofs.«161232_j57629871178420_2_alg».proof.Proof.KernelValue
import Idealize.ShloMosaic.Adequacy
import Idealize.ShloMosaic.Init

noncomputable section

namespace Cert.Proof

open Idealize.ShloMosaic Idealize.SL.Sem

/-- The program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- On the extended reals the kernel's two result arrays end at the reference's two last stages of the argument arrays,
    and the reference's at the same stages of arguments that agree. -/
theorem algebraic : Cert.algebraic_KernelIdeal_ReferenceIdeal := by
  intro m ρ m' ρ' _ hagree
  refine ⟨_, _, Cert.KernelValue.run m ρ, ?_⟩
  refine (θ_run Cert.ReferenceIdeal.defs _ _).mono (fun _ h c => ?_) (Cert.ReferenceIdeal.Value.run (F := Ideal) m' ρ')
  obtain ⟨h0, h1, hrest⟩ := h c
  obtain ⟨e0, e1, e2, e3, e4, e5, e6, e7, e8, e9, e10, e11, e12, e13, e14, e15⟩ := hagree c
  refine ⟨h0.trans ?_, h1.trans ?_, hrest⟩
  · rw [e0, e1, e2, e3, e4, e5, e6, e7, e8, e9, e10, e11, e12, e13, e14, e15]
    exact Cert.ReferenceIdeal.Read.val_main_v47_eq _ _ _ _ _ _ _ _ _ _ _ _ _ _ _ _
  · rw [e0, e1, e2, e3, e4, e5, e6, e7, e8, e9, e10, e11, e12, e13, e14, e15]
    exact Cert.ReferenceIdeal.Read.val_main_v48_eq _ _ _ _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
